-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg9 : FVec F S128x6 .f32) (main_arg10 : FVec F S6 .f32) (main_v33 : IVec S_ 1) : IVec S_ 1 :=
  let main_v34 : FVec F S128x6 .f32 := Host.absf main_arg9
  let main_cst_12 : FVec F S_ .f32 := constant S_ .f32 0x7F800000#32
  let main_v35 : FVec F S128x6 .f32 := broadcastInDim S128x6 ![] bcast_S_S128x6 main_cst_12
  let main_v36 : IVec S128x6 1 := cmpf .olt main_v34 main_v35
  let main_c_13 : IVec S_ 1 := constantI S_ 1 1#1
  let main_v37 : IVec S_ 1 := (fun x v => Host.reduce IntOp.andi x v reducesTo_S128x6_S_d0_1 h_S_) main_v36 main_c_13
  let main_v38 : IVec S_ 1 := andi main_v33 main_v37
  let main_v39 : FVec F S6 .f32 := Host.absf main_arg10
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x6 .f32) (main_arg10 : FVec F S6 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x6 .f32) (main_arg10 : FVec F S6 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S64 : Shape := ⟨1, ![64]⟩
abbrev S50000x1 : Shape := ⟨2, ![50000, 1]⟩
abbrev S64x128 : Shape := ⟨2, ![64, 128]⟩
abbrev S64x1 : Shape := ⟨2, ![64, 1]⟩
abbrev S64x6 : Shape := ⟨2, ![64, 6]⟩
abbrev S1x6 : Shape := ⟨2, ![1, 6]⟩

abbrev nBuf : Space → Nat
  | .hbm => 123
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x6, .f32⟩
  | .hbm, ⟨10, _⟩ => ⟨S6, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S850000x1, .f32⟩
  | .hbm, ⟨52, _⟩ => ⟨S50000x128, .bf16⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .bf16⟩
  | .hbm, ⟨62, _⟩ => ⟨S850000x128, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S50000x128, .f32⟩
  | .hbm, ⟨70, _⟩ => ⟨S50000x128, .bf16⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .bf16⟩
  | .hbm, ⟨80, _⟩ => ⟨S850000x128, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S50000x128, .f32⟩
  | .hbm, ⟨88, _⟩ => ⟨S50000x128, .bf16⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x128, .bf16⟩
  | .hbm, ⟨98, _⟩ => ⟨S850000x128, .f32⟩
  | .hbm, ⟨99, _⟩ => ⟨S850000x128, .f32⟩
  | .hbm, ⟨100, _⟩ => ⟨S850000x128, .f32⟩
  | .hbm, ⟨101, _⟩ => ⟨S_, .f32⟩
  | .hbm, ⟨102, _⟩ => ⟨S50000x128, .f32⟩
  | .hbm, ⟨103, _⟩ => ⟨S850000x1, .i32⟩
  | .hbm, ⟨104, _⟩ => ⟨S50000x128, .f32⟩
  | .hbm, ⟨105, _⟩ => ⟨S50000x128, .f32⟩
  | .hbm, ⟨106, _⟩ => ⟨S_, .f32⟩
  | .hbm, ⟨107, _⟩ => ⟨S50000, .f32⟩
  | .hbm, ⟨108, _⟩ => ⟨S_, .f32⟩
  | .hbm, ⟨109, _⟩ => ⟨S64, .f32⟩
  | .hbm, ⟨110, _⟩ => ⟨S50000x1, .i32⟩
  | .hbm, ⟨111, _⟩ => ⟨S64, .f32⟩
  | .hbm, ⟨112, _⟩ => ⟨S_, .f32⟩
  | .hbm, ⟨113, _⟩ => ⟨S64x128, .f32⟩
  | .hbm, ⟨114, _⟩ => ⟨S50000x1, .i32⟩
  | .hbm, ⟨115, _⟩ => ⟨S64x128, .f32⟩
  | .hbm, ⟨116, _⟩ => ⟨S_, .f32⟩
  | .hbm, ⟨117, _⟩ => ⟨S64, .f32⟩
  | .hbm, ⟨118, _⟩ => ⟨S64, .f32⟩
  | .hbm, ⟨119, _⟩ => ⟨S64x1, .f32⟩
  | .hbm, ⟨120, _⟩ => ⟨S64x128, .f32⟩
  | .hbm, ⟨121, _⟩ => ⟨S64x128, .f32⟩
  | .hbm, ⟨122, _⟩ => ⟨S64x6, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .bf16⟩
  | .local _ .vmem, ⟨24, _⟩ => ⟨S2000x128, .bf16⟩
  | .local _ .vmem, ⟨25, _⟩ => ⟨S2000x128, .f32⟩
  | .local _ .vmem, ⟨26, _⟩ => ⟨S2000x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | .local _ .vmem, ⟨30, _⟩ => ⟨S64x128, .f32⟩
  | .local _ .vmem, ⟨31, _⟩ => ⟨S128x6, .f32⟩
  | .local _ .vmem, ⟨32, _⟩ => ⟨S6, .f32⟩
  | .local _ .vmem, ⟨33, _⟩ => ⟨S64x6, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_cst_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x6 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S6 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x6 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x6_S128x6_0_0 : ∀ a, (![0, 0] : Fin 2 → Nat) a + S128x6.size a ≤ S128x6.size a
  h_S128x6 : 0 < S128x6.numel
  inb_S6_S6_0 : ∀ a, (![0] : Fin 1 → Nat) a + S6.size a ≤ S6.size a
  h_S6 : 0 < S6.numel
  shapeCasts_S6_S1x6 : S6.ShapeCasts S1x6
  broadcasts_S1x6_S64x6 : S1x6.Broadcasts S64x6
  inb_S64x6_S64x6_0_0 : ∀ a, (![0, 0] : Fin 2 → Nat) a + S64x6.size a ≤ S64x6.size a
  h_S64x6 : 0 < S64x6.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x6_S64x6_1_0_0_1_n_n_wf : DotDims.WF S64x128 S128x6 S64x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .bf16 = 32 ∨ (Rect.block (s := S50000x128) S2000x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .bf16 = 32 ∨ (Rect.block (s := S50000x128) S2000x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x128.size a ≤ S64x128.size a
  hwx6_0 : ∀ i : grid6.Coords, EltTy.bits .f32 = 32 ∨ (Rect.block (s := S64x128) S64x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x6.size a ≤ S128x6.size a
  hwx6_1 : ∀ i : grid6.Coords, EltTy.bits .f32 = 32 ∨ (Rect.block (s := S128x6) S128x6.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S6.size a ≤ S6.size a
  hwx6_2 : ∀ i : grid6.Coords, EltTy.bits .f32 = 32 ∨ (Rect.block (s := S6) S6.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x6.size a ≤ S64x6.size a
  hwx6_3 : ∀ i : grid6.Coords, EltTy.bits .f32 = 32 ∨ (Rect.block (s := S64x6) S64x6.size (cc6_transform_3 i) (hinb6_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x6_S64x6_1_0_0_1_n_n : DotDims S64x128 S128x6 S64x6 where
  lhsContracting := [1]
  rhsContracting := [0]
  lhsNonContracting := [0]
  rhsNonContracting := [1]
  lhsBatch := []
  rhsBatch := []
  wf := dot_S64x128_S128x6_S64x6_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v87) S64x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x6.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S6.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S64x6.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64 : Shape := ⟨1, ![64]⟩
abbrev S50000x1 : Shape := ⟨2, ![50000, 1]⟩
abbrev S64x128 : Shape := ⟨2, ![64, 128]⟩
abbrev S64x1 : Shape := ⟨2, ![64, 1]⟩
abbrev S64x6 : Shape := ⟨2, ![64, 6]⟩
abbrev S1x6 : Shape := ⟨2, ![1, 6]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x6, .f32⟩
  | 10 => ⟨S6, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S850000x1, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x128, .f32⟩
  | 85 => ⟨S850000x128, .f32⟩
  | 86 => ⟨S_, .f32⟩
  | 87 => ⟨S50000x128, .f32⟩
  | 88 => ⟨S850000x1, .i32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S50000x128, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x128, .f32⟩
  | 106 => ⟨S850000x128, .f32⟩
  | 107 => ⟨S850000x128, .f32⟩
  | 108 => ⟨S_, .f32⟩
  | 109 => ⟨S50000x128, .f32⟩
  | 110 => ⟨S850000x1, .i32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .f32⟩
  | 119 => ⟨S50000, .f32⟩
  | 120 => ⟨S_, .f32⟩
  | 121 => ⟨S64, .f32⟩
  | 122 => ⟨S50000x1, .i32⟩
  | 123 => ⟨S64, .f32⟩
  | 124 => ⟨S_, .f32⟩
  | 125 => ⟨S64x128, .f32⟩
  | 126 => ⟨S50000x1, .i32⟩
  | 127 => ⟨S64x128, .f32⟩
  | _ => ⟨S50000x128, .f32⟩

abbrev hbmTy0_1 (i : Nat) : BufTy := match i % 128 with
  | 0 => ⟨S_, .f32⟩
  | 1 => ⟨S64, .f32⟩
  | 2 => ⟨S64, .f32⟩
  | 3 => ⟨S64x1, .f32⟩
  | 4 => ⟨S64x128, .f32⟩
  | 5 => ⟨S64x128, .f32⟩
  | 6 => ⟨S64x6, .f32⟩
  | 7 => ⟨S1x6, .f32⟩
  | 8 => ⟨S64x6, .f32⟩
  | 9 => ⟨S64x6, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call2_cst : Ref sig .tc := ⟨.hbm, 93, rfl⟩
abbrev main_call2_v0 : Ref sig .tc := ⟨.hbm, 94, rfl⟩
abbrev main_v64 : Ref sig .tc := ⟨.hbm, 95, rfl⟩
abbrev main_v65 : Ref sig .tc := ⟨.hbm, 96, rfl⟩
abbrev main_c_12 : Ref sig .tc := ⟨.hbm, 97, rfl⟩
abbrev main_v66 : Ref sig .tc := ⟨.hbm, 98, rfl⟩
abbrev main_v67 : Ref sig .tc := ⟨.hbm, 99, rfl⟩
abbrev main_c_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_call3_cst : Ref sig .tc := ⟨.hbm, 115, rfl⟩
abbrev main_call3_v0 : Ref sig .tc := ⟨.hbm, 116, rfl⟩
abbrev main_v81 : Ref sig .tc := ⟨.hbm, 117, rfl⟩
abbrev main_cst_15 : Ref sig .tc := ⟨.hbm, 118, rfl⟩
abbrev main_v82 : Ref sig .tc := ⟨.hbm, 119, rfl⟩
abbrev main_cst_16 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_17 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_18 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S6_S1x6_1 : S6.BroadcastsInDim S1x6 (![1] : Fin 1 → Fin S1x6.rank)
  bcast_S1x6_S64x6_0_1 : S1x6.BroadcastsInDim S64x6 (![0, 1] : Fin 2 → Fin S64x6.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x6_S64x6_1_0_0_1_n_n_wf : DotDims.WF S64x128 S128x6 S64x6 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x6_S64x6_1_0_0_1_n_n : DotDims S64x128 S128x6 S64x6 where
  lhsContracting := [1]
  rhsContracting := [0]
  lhsNonContracting := [0]
  rhsNonContracting := [1]
  lhsBatch := []
  rhsBatch := []
  wf := dot_S64x128_S128x6_S64x6_1_0_0_1_n_n_wf

class Facts : Prop extends Facts₀ where

variable [Facts]
-- ==== Proof.KernelRun.lean ====
/-
  The idealized kernel's whole run, read at the end: @main is fourteen segments (seven stretches of host operations and
  seven kernel regions), and after the last one every buffer of the core that outlives a region holds the last
  boundary's contents — the fold of the host stretches and of the regions' write-backs from the launch memory. The
  frame certificate reads only the argument arrays off that final state; here the same run is stated with the whole
  final state, so that the two result arrays can be read off it as well.
-/
import proofs.«105373_j14980845928717_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every buffer that outlives
    the regions holds the contents of the last boundary of the fold. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The two results and the eleven arguments read off that final state: each result at the last boundary's contents,
    each argument as launched. -/
theorem run_results : θ_run defs (onTc (τ := τ) (main (F := F))) ⟨m, fun _ => 0, ρ⟩ (fun r => ∀ c : Dev nD,
      r.2.mem ((c.tc : Thread nD τ).loc main_v88) = W14 m ρ c (Proc.devRef .tc main_v88)
      ∧ r.2.mem ((c.tc : Thread nD τ).loc main_v87) = W14 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
      ⟨h c _ (mem_uc main_v88 (by decide)),
       h c _ (mem_uc main_v87 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)
    (run_boundary m ρ)

end Cert.KernelIdeal.WholeRun

end
-- ==== Proof.Spec.lean ====
/-
  The graph convolution network both programs compute, as a composition of named stages on whole arrays, for any float values
  (read at the extended reals, with exact operations, where the two programs are compared).

  The edge list (two rows of 800000 node numbers) is extended by one self loop per node: `srcOf` and `dstOf` are the
  850000 sources and targets. The degree of a node counts the edges that end in it; `dinvOf` is its inverse square root
  (zero where the degree is not positive); `normOf` gives every edge the product of the two end nodes' values. One layer
  multiplies the node features by a weight matrix (`project`), sends every edge's source row, scaled by the edge's
  coefficient, to the edge's target and sums there (`aggregate`), then adds the bias to every row and applies the
  rectifier (`addBiasRelu`). After three layers the node rows are averaged per graph (`pool`: the sum of the rows of a
  graph's nodes divided by the number of its nodes, at least one) and a last dense step gives the class scores (`head`).

  Each stage is spelled with the host operations of the reference program, so that the reference's composed term is
  this composition literally; the kernel's regions are shown to compute `project`, `addBiasRelu` and `head`.
-/
import proofs.«105373_j14980845928717_1_alg».proof.ReferenceIdeal
import Idealize.ShloMosaic.PureOps.Ideal

noncomputable section

namespace Cert.Gcn

open Idealize.ShloMosaic Cert.ReferenceIdeal Cert.ReferenceIdeal.Facts₀

-- the shape relations the operations take as evidence are the ones the reference program states
variable [Cert.ReferenceIdeal.Facts₀]

variable {F : FTy → Type} [FloatOps F]

/-- The edge list: row 0 the sources, row 1 the targets. -/
abbrev Edges (F : FTy → Type) : Type := (⟨S2x800000, .i32⟩ : BufTy).Contents (Elt F)
/-- One node number per edge, the self loops included. -/
abbrev Ends (F : FTy → Type) : Type := (⟨S850000, .i32⟩ : BufTy).Contents (Elt F)
/-- One coefficient per edge, as a column. -/
abbrev EdgeCol (F : FTy → Type) : Type := (⟨S850000x1, .f32⟩ : BufTy).Contents (Elt F)
/-- One value per node. -/
abbrev NodeVec (F : FTy → Type) : Type := (⟨S50000, .f32⟩ : BufTy).Contents (Elt F)
/-- One row of 128 features per node. -/
abbrev NodeRows (F : FTy → Type) : Type := (⟨S50000x128, .f32⟩ : BufTy).Contents (Elt F)
/-- A 128 by 128 weight matrix, and a bias of 128 entries. -/
abbrev Weights (F : FTy → Type) : Type := (⟨S128x128, .f32⟩ : BufTy).Contents (Elt F)
abbrev Bias (F : FTy → Type) : Type := (⟨S128, .f32⟩ : BufTy).Contents (Elt F)
/-- The graph number of every node. -/
abbrev GraphOf (F : FTy → Type) : Type := (⟨S50000, .i32⟩ : BufTy).Contents (Elt F)
/-- One row of 128 features per graph; the head's weights and bias; the class scores. -/
abbrev GraphRows (F : FTy → Type) : Type := (⟨S64x128, .f32⟩ : BufTy).Contents (Elt F)
abbrev HeadWeights (F : FTy → Type) : Type := (⟨S128x6, .f32⟩ : BufTy).Contents (Elt F)
abbrev HeadBias (F : FTy → Type) : Type := (⟨S6, .f32⟩ : BufTy).Contents (Elt F)
abbrev Scores (F : FTy → Type) : Type := (⟨S64x6, .f32⟩ : BufTy).Contents (Elt F)

/-- The sources: row 0 of the edge list, then node i for the self loop of node i. -/
def srcOf (E : Edges F) : Ends F :=
  concatenate S850000 0 [⟨S800000, (shapeCast S800000 (extractStridedSlice S1x800000 ![0, 0] E slices_S2x800000_S1x800000_0_0) shapeCasts_S1x800000_S800000)⟩, ⟨S50000, (iotaInDim S50000 32 0)⟩] concatenates_S800000_S50000_S850000_d0

/-- The targets: row 1 of the edge list, then node i for the self loop of node i. -/
def dstOf (E : Edges F) : Ends F :=
  concatenate S850000 0 [⟨S800000, (shapeCast S800000 (extractStridedSlice S1x800000 ![1, 0] E slices_S2x800000_S1x800000_1_0) shapeCasts_S1x800000_S800000)⟩, ⟨S50000, (iotaInDim S50000 32 0)⟩] concatenates_S800000_S50000_S850000_d0

/-- A negative node number counts from the end: 50000 is added to it. -/
def wrap (v : Ends F) : Ends F :=
  select (cmpi .slt v (broadcastInDim S850000 ![] bcast_S_S850000 (constantI S_ 32 0#32))) (addi v (broadcastInDim S850000 ![] bcast_S_S850000 (constantI S_ 32 50000#32))) v

/-- The degree: for every node the number of edges that end in it (a one summed per edge). -/
def degOf (dst : Ends F) : NodeVec F :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- The inverse square root of the degree where it is positive, zero elsewhere. -/
def dinvOf (deg : NodeVec F) : NodeVec F :=
  select (cmpf .ogt deg (broadcastInDim S50000 ![] bcast_S_S50000 (constant S_ .f32 0x00000000#32))) (Host.rsqrt deg) (broadcastInDim S50000 ![] bcast_S_S50000 (id (constant S_ .f32 0x00000000#32)))

/-- An edge's coefficient: the product of its two end nodes' values. -/
def normOf (src dst : Ends F) : EdgeCol F :=
  broadcastInDim S850000x1 ![0] bcast_S850000_S850000x1_0 (mulf (Host.gather gather_S50000_S850000x1_S850000_n_0_n_n_0_1_1 (dinvOf (degOf dst)) (broadcastInDim S850000x1 ![0] bcast_S850000_S850000x1_0 (wrap src))) (Host.gather gather_S50000_S850000x1_S850000_n_0_n_n_0_1_1 (dinvOf (degOf dst)) (broadcastInDim S850000x1 ![0] bcast_S850000_S850000x1_0 (wrap dst))))

/-- The node rows times a weight matrix. -/
def project (H : NodeRows F) (W : Weights F) : NodeRows F :=
  Host.dotGeneral dot_S50000x128_S128x128_S50000x128_1_0_0_1_n_n none H W

/-- Every edge carries its source's row, scaled by the edge's coefficient, to its target, where the rows are summed. -/
def aggregate (src dst : Ends F) (nrm : EdgeCol F) (HW : NodeRows F) : NodeRows F :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 HW (broadcastInDim S850000x1 ![0] bcast_S850000_S850000x1_0 (wrap src))) (broadcastInDim S850000x128 ![0, 1] bcast_S850000x1_S850000x128_0_1 nrm))

/-- The bias added to every row, then the rectifier. -/
def addBiasRelu (A : NodeRows F) (b : Bias F) : NodeRows F :=
  maximumf (addf A (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- One layer. -/
def layer (src dst : Ends F) (nrm : EdgeCol F) (H : NodeRows F) (W : Weights F) (b : Bias F) : NodeRows F :=
  addBiasRelu (aggregate src dst nrm (project H W)) b

/-- The mean of the node rows of every graph (the divisor at least one). -/
def pool (B : GraphOf F) (H : NodeRows F) : GraphRows F :=
  Host.divf (Host.scatterAdd scatter_S64x128_S50000x1_S50000x128_1_0_0_1 (broadcastInDim S64x128 ![] bcast_S_S64x128 (constant S_ .f32 0x00000000#32)) (broadcastInDim S50000x1 ![0] bcast_S50000_S50000x1_0 B) H) (broadcastInDim S64x128 ![0, 1] bcast_S64x1_S64x128_0_1 (broadcastInDim S64x1 ![0] bcast_S64_S64x1_0 (maximumf (Host.scatterAdd scatter_S64_S50000x1_S50000_n_0_0_1 (broadcastInDim S64 ![] bcast_S_S64 (constant S_ .f32 0x00000000#32)) (broadcastInDim S50000x1 ![0] bcast_S50000_S50000x1_0 B) (broadcastInDim S50000 ![] bcast_S_S50000 (constant S_ .f32 0x3F800000#32))) (broadcastInDim S64 ![] bcast_S_S64 (constant S_ .f32 0x3F800000#32)))))

/-- The last dense step: the pooled rows times the head's weights, plus its bias on every row. -/
def head (P : GraphRows F) (LW : HeadWeights F) (Lb : HeadBias F) : Scores F :=
  addf (Host.dotGeneral dot_S64x128_S128x6_S64x6_1_0_0_1_n_n none P LW) (broadcastInDim S64x6 ![0, 1] bcast_S1x6_S64x6_0_1 (broadcastInDim S1x6 ![1] bcast_S6_S1x6_1 Lb))

/-- Three layers over one graph structure, then the pooling: the second result. -/
def embedding (X : NodeRows F) (E : Edges F) (B : GraphOf F) (W0 : Weights F) (b0 : Bias F) (W1 : Weights F) (b1 : Bias F) (W2 : Weights F) (b2 : Bias F) : GraphRows F :=
  pool B (layer (srcOf E) (dstOf E) (normOf (srcOf E) (dstOf E)) (layer (srcOf E) (dstOf E) (normOf (srcOf E) (dstOf E)) (layer (srcOf E) (dstOf E) (normOf (srcOf E) (dstOf E)) X W0 b0) W1 b1) W2 b2)

/-- The class scores: the first result. -/
def logits (X : NodeRows F) (E : Edges F) (B : GraphOf F) (W0 : Weights F) (b0 : Bias F) (W1 : Weights F) (b1 : Bias F) (W2 : Weights F) (b2 : Bias F) (LW : HeadWeights F) (Lb : HeadBias F) : Scores F :=
  head (embedding X E B W0 b0 W1 b1 W2 b2) LW Lb

end Cert.Gcn

end
-- ==== Proof.RefRun.lean ====
/-
  The reference program's run, read back: @main is a straight line of 127 host operations (the three calls of the
  rectifier and the call of `where` stand as their bodies' operations), so every weakly fair execution terminates with
  each result buffer at the operations' composed term of the argument arrays, and the arguments unchanged. Stage by
  stage that composed term is the specification's composition: the edge list extended by the self loops, the degree and
  its inverse square root, the edge coefficients, three layers (project, aggregate over the edges, add the bias, rectify),
  the mean over every graph's nodes, the last dense step.
-/
import proofs.«105373_j14980845928717_1_alg».proof.Proof.Gen.ReferenceIdeal
import proofs.«105373_j14980845928717_1_alg».proof.Proof.Spec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo Cert.Gcn

variable {F : FTy → Type} [FloatOps F]

/-- @main's 127 operations, in order (a called function's operations stand in its call's place, spelt `TRef.…`). -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    unary main_v29 main_v30 (broadcastInDim S850000x1 ![0] bcast_S850000_S850000x1_0 : (⟨S850000, .f32⟩ : BufTy).Contents (Elt F) → (⟨S850000x1, .f32⟩ : BufTy).Contents (Elt F)),
    binary main_arg0 main_arg3 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v39 (broadcastInDim S850000x128 ![0, 1] bcast_S850000x1_S850000x128_0_1 : (⟨S850000x1, .f32⟩ : BufTy).Contents (Elt F) → (⟨S850000x128, .f32⟩ : BufTy).Contents (Elt F)),
    binary main_v38 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg5 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v56 (broadcastInDim S850000x128 ![0, 1] bcast_S850000x1_S850000x128_0_1 : (⟨S850000x1, .f32⟩ : BufTy).Contents (Elt F) → (⟨S850000x128, .f32⟩ : BufTy).Contents (Elt F)),
    binary main_v55 main_v56 main_v57 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v58 (broadcastInDim S50000x128 ![] bcast_S_S50000x128 : (⟨S_, .f32⟩ : BufTy).Contents (Elt F) → (⟨S50000x128, .f32⟩ : BufTy).Contents (Elt F)),
    unary main_v6 main_v59 (broadcastInDim S850000x1 ![0] bcast_S850000_S850000x1_0 : (⟨S850000, .i32⟩ : BufTy).Contents (Elt F) → (⟨S850000x1, .i32⟩ : BufTy).Contents (Elt F)),
    ternary main_v58 main_v59 main_v57 main_v60 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v61 (broadcastInDim S1x128 ![1] bcast_S128_S1x128_1 : (⟨S128, .f32⟩ : BufTy).Contents (Elt F) → (⟨S1x128, .f32⟩ : BufTy).Contents (Elt F)),
    unary main_v61 main_v62 (broadcastInDim S50000x128 ![0, 1] bcast_S1x128_S50000x128_0_1 : (⟨S1x128, .f32⟩ : BufTy).Contents (Elt F) → (⟨S50000x128, .f32⟩ : BufTy).Contents (Elt F)),
    binary main_v60 main_v62 main_v63 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v63) (TRef.of (T := ⟨S50000x128, .f32⟩) main_call2_v0) (TRef.of (T := ⟨S50000x128, .f32⟩) main_v64) maximumf,
    binary main_v64 main_arg7 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_12 (constantI S_ 32 0#32),
    unary main_c_12 main_v66 (broadcastInDim S850000 ![] bcast_S_S850000 : (⟨S_, .i32⟩ : BufTy).Contents (Elt F) → (⟨S850000, .i32⟩ : BufTy).Contents (Elt F)),
    binary main_v3 main_v66 main_v67 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v68 (broadcastInDim S850000 ![] bcast_S_S850000 : (⟨S_, .i32⟩ : BufTy).Contents (Elt F) → (⟨S850000, .i32⟩ : BufTy).Contents (Elt F)),
    binary main_v3 main_v68 main_v69 (addi : (⟨S850000, .i32⟩ : BufTy).Contents (Elt F) → (⟨S850000, .i32⟩ : BufTy).Contents (Elt F) → (⟨S850000, .i32⟩ : BufTy).Contents (Elt F)),
    ternary main_v67 main_v69 main_v3 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v70 main_v71 (broadcastInDim S850000x1 ![0] bcast_S850000_S850000x1_0 : (⟨S850000, .i32⟩ : BufTy).Contents (Elt F) → (⟨S850000x1, .i32⟩ : BufTy).Contents (Elt F)),
    binary main_v65 main_v71 main_v72 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v73 (broadcastInDim S850000x128 ![0, 1] bcast_S850000x1_S850000x128_0_1 : (⟨S850000x1, .f32⟩ : BufTy).Contents (Elt F) → (⟨S850000x128, .f32⟩ : BufTy).Contents (Elt F)),
    binary main_v72 main_v73 main_v74 (mulf : (⟨S850000x128, .f32⟩ : BufTy).Contents (Elt F) → (⟨S850000x128, .f32⟩ : BufTy).Contents (Elt F) → (⟨S850000x128, .f32⟩ : BufTy).Contents (Elt F)),
    nullary main_cst_14 (constant S_ .f32 0x00000000#32),
    unary main_cst_14 main_v75 (broadcastInDim S50000x128 ![] bcast_S_S50000x128 : (⟨S_, .f32⟩ : BufTy).Contents (Elt F) → (⟨S50000x128, .f32⟩ : BufTy).Contents (Elt F)),
    unary main_v6 main_v76 (broadcastInDim S850000x1 ![0] bcast_S850000_S850000x1_0 : (⟨S850000, .i32⟩ : BufTy).Contents (Elt F) → (⟨S850000x1, .i32⟩ : BufTy).Contents (Elt F)),
    ternary main_v75 main_v76 main_v74 main_v77 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg8 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v77 main_v79 main_v80 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v80) (TRef.of (T := ⟨S50000x128, .f32⟩) main_call3_v0) (TRef.of (T := ⟨S50000x128, .f32⟩) main_v81) maximumf,
    nullary main_cst_15 (constant S_ .f32 0x3F800000#32),
    unary main_cst_15 main_v82 (broadcastInDim S50000 ![] bcast_S_S50000 : (⟨S_, .f32⟩ : BufTy).Contents (Elt F) → (⟨S50000, .f32⟩ : BufTy).Contents (Elt F)),
    nullary main_cst_16 (constant S_ .f32 0x00000000#32),
    unary main_cst_16 main_v83 (broadcastInDim S64 ![] bcast_S_S64 : (⟨S_, .f32⟩ : BufTy).Contents (Elt F) → (⟨S64, .f32⟩ : BufTy).Contents (Elt F)),
    unary main_arg2 main_v84 (broadcastInDim S50000x1 ![0] bcast_S50000_S50000x1_0 : (⟨S50000, .i32⟩ : BufTy).Contents (Elt F) → (⟨S50000x1, .i32⟩ : BufTy).Contents (Elt F)),
    ternary main_v83 main_v84 main_v82 main_v85 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    nullary main_cst_17 (constant S_ .f32 0x00000000#32),
    unary main_cst_17 main_v86 (broadcastInDim S64x128 ![] bcast_S_S64x128 : (⟨S_, .f32⟩ : BufTy).Contents (Elt F) → (⟨S64x128, .f32⟩ : BufTy).Contents (Elt F)),
    unary main_arg2 main_v87 (broadcastInDim S50000x1 ![0] bcast_S50000_S50000x1_0 : (⟨S50000, .i32⟩ : BufTy).Contents (Elt F) → (⟨S50000x1, .i32⟩ : BufTy).Contents (Elt F)),
    ternary main_v86 main_v87 main_v81 main_v88 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    nullary main_cst_18 (constant S_ .f32 0x3F800000#32),
    unary main_cst_18 main_v89 (broadcastInDim S64 ![] bcast_S_S64 : (⟨S_, .f32⟩ : BufTy).Contents (Elt F) → (⟨S64, .f32⟩ : BufTy).Contents (Elt F)),
    binary main_v85 main_v89 main_v90 (maximumf : (⟨S64, .f32⟩ : BufTy).Contents (Elt F) → (⟨S64, .f32⟩ : BufTy).Contents (Elt F) → (⟨S64, .f32⟩ : BufTy).Contents (Elt F)),
    unary main_v90 main_v91 (broadcastInDim S64x1 ![0] bcast_S64_S64x1_0 : (⟨S64, .f32⟩ : BufTy).Contents (Elt F) → (⟨S64x1, .f32⟩ : BufTy).Contents (Elt F)),
    unary main_v91 main_v92 (broadcastInDim S64x128 ![0, 1] bcast_S64x1_S64x128_0_1 : (⟨S64x1, .f32⟩ : BufTy).Contents (Elt F) → (⟨S64x128, .f32⟩ : BufTy).Contents (Elt F)),
    binary main_v88 main_v92 main_v93 (Host.divf : (⟨S64x128, .f32⟩ : BufTy).Contents (Elt F) → (⟨S64x128, .f32⟩ : BufTy).Contents (Elt F) → (⟨S64x128, .f32⟩ : BufTy).Contents (Elt F)),
    binary main_v93 main_arg9 main_v94 ((fun l r => Host.dotGeneral dot_S64x128_S128x6_S64x6_1_0_0_1_n_n none l r) : (⟨S64x128, .f32⟩ : BufTy).Contents (Elt F) → (⟨S128x6, .f32⟩ : BufTy).Contents (Elt F) → (⟨S64x6, .f32⟩ : BufTy).Contents (Elt F)),
    unary main_arg10 main_v95 (broadcastInDim S1x6 ![1] bcast_S6_S1x6_1 : (⟨S6, .f32⟩ : BufTy).Contents (Elt F) → (⟨S1x6, .f32⟩ : BufTy).Contents (Elt F)),
    unary main_v95 main_v96 (broadcastInDim S64x6 ![0, 1] bcast_S1x6_S64x6_0_1 : (⟨S1x6, .f32⟩ : BufTy).Contents (Elt F) → (⟨S64x6, .f32⟩ : BufTy).Contents (Elt F)),
    binary main_v94 main_v96 main_v97 (addf : (⟨S64x6, .f32⟩ : BufTy).Contents (Elt F) → (⟨S64x6, .f32⟩ : BufTy).Contents (Elt F) → (⟨S64x6, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

set_option maxRecDepth 16384 in
set_option maxHeartbeats 50800000 in
/-- On every device, from any memory with zero counters: every weakly fair execution of @main terminates with the
    first result at the class scores and the second at the pooled embedding of the argument arrays, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v97) = logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v93) = embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v97).trans (by after_results_simp <;> rfl <;> (unfold logits head embedding pool layer addBiasRelu aggregate project normOf dinvOf degOf wrap srcOf dstOf; rfl)),
      (h c main_v93).trans (by after_results_simp <;> rfl <;> (unfold embedding pool layer addBiasRelu aggregate project normOf dinvOf degOf wrap srcOf dstOf; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.HandRun

end
-- ==== Proof.LibMatDot.lean ====
/-
  The product of an m×k matrix by a k×n matrix, read at one entry, at the ideal values: both the vector unit's
  matrix product into a zero accumulator and the host's `dot_general` with the dimension numbers
  (contracting [1]×[0], no batch axis) are the sum over the contracted coordinate of the products of the entries,
  `∑ c, A (a, c) * B (c, b)`, whatever the element formats of the operands and whatever proof of well-formedness
  the record of dimension numbers carries. Also three broadcasts read at an entry: a column `[a, 1]` laid across
  `b` columns (the vector unit's and the host's), a vector of `n` entries laid along every row through a one-row
  matrix (the host's two-step form), and a scalar constant laid over a shape.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.Lib.MatDot

open Idealize.ShloMosaic Idealize.ShloMosaic.ValueIdx

variable {m k n : Nat} {φ₁ φ₂ : FTy}

/-- The left operand's entry that output entry `(a, b)` meets at contraction position `c` is `(a, c)`. -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's entry there is `(c, b)`. -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's matrix product at entry `(a, b)` is `∑ c, A (a, c) * B (c, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

/-- The vector unit's matrix product into the zero accumulator at entry `(a, b)` is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

variable {α : Type}

/-- A column `[a, 1]` laid across `b` columns by the vector unit's broadcast reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` along axes `[0, 1]` reads the same. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries made a one-row matrix along axis 1 by the host reads, at `(u, t)`, the vector at `t`. -/
theorem broadcastInDim_vec_oneRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- So the host's two-step row broadcast (a vector to one row, the row down `m` rows) reads, at `(r, t)`, the vector at `t`. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (Idealize.ShloMosaic.broadcastInDim_oneRow_apply h2 _ r t).trans (broadcastInDim_vec_oneRow_apply h1 x 0 t)

/-- The vector unit's form of the same: the vector cast to one row, the row laid down `m` rows. -/
theorem broadcastTo_vec_rows_apply {m n : ℕ} (h1 : (⟨1, ![n]⟩ : Shape).ShapeCasts ⟨2, ![1, n]⟩)
    (h2 : (⟨2, ![1, n]⟩ : Shape).Broadcasts ⟨2, ![m, n]⟩) (x : (⟨1, ![n]⟩ : Shape).Idx → α) (r : Fin m) (t : Fin n) :
    broadcastTo ⟨2, ![m, n]⟩ (shapeCast ⟨2, ![1, n]⟩ x h1) h2 (ix2 r t) = x (ix1 t) :=
  (broadcastTo_1b_ab_apply _ h2 r t).trans (shapeCast_a_1a_apply x h1 0 t)

end Cert.Lib.MatDot

end
-- ==== Proof.LibDenseRows.lean ====
/-
  The dense steps of a layer as functions of whole matrices, entry by entry, on the extended reals (general in the extents):

    matProd X W   the product of an m×k matrix by a k×n matrix: entry (a, b) is  ∑ c, X (a, c) · W (c, b);
    addRow A B    a one-row matrix B added to every row of A: entry (a, b) is  A (a, b) + B (0, b);
    addRowRelu    the same followed by the rectifier, max (·, 0).

  with the host's forms of the same functions: `dot_general` (contracting [1]×[0]) is `matProd`; the sum with a vector laid
  along every row (the vector made one row, the row laid down the rows) is `addRow` of the vector cast to a one-row matrix;
  that sum followed by `maximum` with the zero constant is `addRowRelu`. A program that computes these a row block at a time
  and one that computes them in one host operation agree entry by entry, in the same order of operations: no law of
  arithmetic is needed to join them, so no finiteness of the inputs either.
  (It imports this directory's copy of LibMatDot.lean: a matrix product read at an entry, row broadcasts read at an entry.)
-/
import proofs.«105373_j14980845928717_1_alg».proof.Proof.LibMatDot

noncomputable section

open scoped BigOperators

namespace Cert.Dense

open Idealize.ShloMosaic Idealize.ShloMosaic.ValueIdx

variable {m k n : ℕ}

/-- The matrix product: entry `(a, b)` is `∑ c, X (a, c) * W (c, b)`. -/
def matProd (X : FVec Ideal ⟨2, ![m, k]⟩ .f32) (W : FVec Ideal ⟨2, ![k, n]⟩ .f32) : FVec Ideal ⟨2, ![m, n]⟩ .f32 :=
  fun i => ∑ c : Fin k, X (ix2 (⟨(i 0).val, idx2_lt0 i⟩ : Fin m) c) * W (ix2 c (⟨(i 1).val, idx2_lt1 i⟩ : Fin n))

theorem matProd_apply (X : FVec Ideal ⟨2, ![m, k]⟩ .f32) (W : FVec Ideal ⟨2, ![k, n]⟩ .f32) (a : Fin m) (b : Fin n) :
    matProd X W (ix2 a b) = ∑ c : Fin k, X (ix2 a c) * W (ix2 c b) := rfl

/-- A one-row matrix added to every row: entry `(a, b)` is `A (a, b) + B (0, b)`. -/
def addRow (A : FVec Ideal ⟨2, ![m, n]⟩ .f32) (B : FVec Ideal ⟨2, ![1, n]⟩ .f32) : FVec Ideal ⟨2, ![m, n]⟩ .f32 :=
  fun i => A i + B (ix2 (0 : Fin 1) (⟨(i 1).val, idx2_lt1 i⟩ : Fin n))

theorem addRow_apply (A : FVec Ideal ⟨2, ![m, n]⟩ .f32) (B : FVec Ideal ⟨2, ![1, n]⟩ .f32) (a : Fin m) (b : Fin n) :
    addRow A B (ix2 a b) = A (ix2 a b) + B (ix2 (0 : Fin 1) b) := rfl

/-- The row added, then the rectifier: entry `(a, b)` is `max (A (a, b) + B (0, b)) 0`. -/
def addRowRelu (A : FVec Ideal ⟨2, ![m, n]⟩ .f32) (B : FVec Ideal ⟨2, ![1, n]⟩ .f32) : FVec Ideal ⟨2, ![m, n]⟩ .f32 :=
  fun i => max (addRow A B i) (Ideal.ofBits .f32 0x00000000#32)

theorem addRowRelu_apply (A : FVec Ideal ⟨2, ![m, n]⟩ .f32) (B : FVec Ideal ⟨2, ![1, n]⟩ .f32) (a : Fin m) (b : Fin n) :
    addRowRelu A B (ix2 a b) = max (A (ix2 a b) + B (ix2 (0 : Fin 1) b)) (Ideal.ofBits .f32 0x00000000#32) := rfl

/-! ## The host's forms of the same functions -/

/-- The host's `dot_general` (contracting [1]×[0]) is the matrix product. -/
theorem dotGeneral_eq (w : DotDims.WF ⟨2, ![m, k]⟩ ⟨2, ![k, n]⟩ ⟨2, ![m, n]⟩ [1] [0] [0] [1] [] [])
    (prec : Option ContractPrecision) (X : FVec Ideal ⟨2, ![m, k]⟩ .f32) (W : FVec Ideal ⟨2, ![k, n]⟩ .f32) :
    Host.dotGeneral (⟨[1], [0], [0], [1], [], [], w⟩ : DotDims ⟨2, ![m, k]⟩ ⟨2, ![k, n]⟩ ⟨2, ![m, n]⟩) prec X W = matProd X W := by
  funext i
  obtain ⟨a, b, rfl⟩ : ∃ (a : Fin m) (b : Fin n), i = ix2 a b := ⟨i 0, i 1, eq_ix2 i⟩
  rw [matProd_apply]
  exact Cert.Lib.MatDot.dotGeneral_apply w prec X W a b

/-- The host's sum with a vector laid along every row (the vector made one row, the row laid down the rows) is `addRow` of
    the vector as a one-row matrix. -/
theorem add_rows_eq (h1 : (⟨1, ![n]⟩ : Shape).BroadcastsInDim ⟨2, ![1, n]⟩ ![1])
    (h2 : (⟨2, ![1, n]⟩ : Shape).BroadcastsInDim ⟨2, ![m, n]⟩ ![0, 1]) (hc : (⟨1, ![n]⟩ : Shape).ShapeCasts ⟨2, ![1, n]⟩)
    (A : FVec Ideal ⟨2, ![m, n]⟩ .f32) (x : FVec Ideal ⟨1, ![n]⟩ .f32) :
    addf A (broadcastInDim ⟨2, ![m, n]⟩ ![0, 1] h2 (broadcastInDim ⟨2, ![1, n]⟩ ![1] h1 x)) = addRow A (shapeCast ⟨2, ![1, n]⟩ x hc) := by
  funext i
  obtain ⟨a, b, rfl⟩ : ∃ (a : Fin m) (b : Fin n), i = ix2 a b := ⟨i 0, i 1, eq_ix2 i⟩
  rw [addRow_apply, addf_apply, Cert.Lib.MatDot.broadcastInDim_vec_rows_apply h1 h2 x a b, shapeCast_a_1a_apply x hc 0 b]

/-- The host's rectifier, `maximum` with the zero constant laid over the shape. -/
theorem relu_add_rows_eq (h1 : (⟨1, ![n]⟩ : Shape).BroadcastsInDim ⟨2, ![1, n]⟩ ![1])
    (h2 : (⟨2, ![1, n]⟩ : Shape).BroadcastsInDim ⟨2, ![m, n]⟩ ![0, 1]) (hc : (⟨1, ![n]⟩ : Shape).ShapeCasts ⟨2, ![1, n]⟩)
    (h0 : (⟨0, ![]⟩ : Shape).BroadcastsInDim ⟨2, ![m, n]⟩ ![])
    (A : FVec Ideal ⟨2, ![m, n]⟩ .f32) (x : FVec Ideal ⟨1, ![n]⟩ .f32) :
    maximumf (addf A (broadcastInDim ⟨2, ![m, n]⟩ ![0, 1] h2 (broadcastInDim ⟨2, ![1, n]⟩ ![1] h1 x)))
        (broadcastInDim ⟨2, ![m, n]⟩ ![] h0 (constant (F := Ideal) ⟨0, ![]⟩ .f32 0x00000000#32))
      = addRowRelu A (shapeCast ⟨2, ![1, n]⟩ x hc) := by
  rw [add_rows_eq h1 h2 hc]
  funext i
  show max _ (broadcastInDim ⟨2, ![m, n]⟩ ![] h0 (constant (F := Ideal) ⟨0, ![]⟩ .f32 0x00000000#32) i) = _
  rw [broadcastInDim_scalar_apply]
  rfl

end Cert.Dense

end
-- ==== Proof.LibRowTiles.lean ====
/-
  The dense steps of a layer computed a block of rows at a time (general in the extents, on the extended reals).

  A kernel that walks an M-row matrix in blocks of R rows sees, at the block starting at row o, the rows o … o+R-1 of
  the left operand and the whole right operand. What it computes for that block — the vector unit's matrix product into
  a zero accumulator; the bias row laid down the block, added, then the rectifier; the product plus the bias row — is,
  entry by entry, the rows o … o+R-1 of the same step taken on the whole matrix (`Cert.Dense.matProd`, `addRowRelu`,
  `addRow`): entry (a, b) of the block is entry (o + a, b) of the whole. The sums run over the same terms in the same
  order, so nothing about the arithmetic of the extended reals is used.
  (It imports this directory's copies of LibDenseRows.lean and LibMatDot.lean.)
-/
import proofs.«105373_j14980845928717_1_alg».proof.Proof.LibDenseRows

noncomputable section

open scoped BigOperators

namespace Cert.RowTiles

open Idealize.ShloMosaic Idealize.ShloMosaic.ValueIdx Cert.Dense

variable {M R k n : ℕ} {φ₁ φ₂ : FTy}

/-- Rows `o … o+R-1` of the product: the block of the left operand times the whole right operand. -/
theorem matmul_rows (w : DotDims.WF ⟨2, ![R, k]⟩ ⟨2, ![k, n]⟩ ⟨2, ![R, n]⟩ [1] [0] [0] [1] [] [])
    (prec : Option ContractPrecision) (X : FVec Ideal ⟨2, ![M, k]⟩ .f32) (W : FVec Ideal ⟨2, ![k, n]⟩ .f32)
    (x0 : FVec Ideal ⟨2, ![R, k]⟩ φ₁) (x1 : FVec Ideal ⟨2, ![k, n]⟩ φ₂) (o : ℕ) (ho : o + R ≤ M)
    (h0 : ∀ (a : Fin R) (c : Fin k), x0 (ix2 a c) = X (ix2 (⟨o + a.val, by have := a.isLt; omega⟩ : Fin M) c))
    (h1 : ∀ (c : Fin k) (b : Fin n), x1 (ix2 c b) = W (ix2 c b)) (a : Fin R) (b : Fin n) :
    matmul (⟨[1], [0], [0], [1], [], [], w⟩ : DotDims ⟨2, ![R, k]⟩ ⟨2, ![k, n]⟩ ⟨2, ![R, n]⟩) prec x0 x1
        (constant (F := Ideal) ⟨2, ![R, n]⟩ .f32 0x00000000#32) (ix2 a b)
      = matProd X W (ix2 (⟨o + a.val, by have := a.isLt; omega⟩ : Fin M) b) := by
  rw [Cert.Lib.MatDot.matmul_zero_apply w prec x0 x1 a b, matProd_apply]
  exact Finset.sum_congr rfl fun c _ => by rw [h0 a c, h1 c b]

/-- Rows `o … o+R-1` of "add the bias row, then the rectifier": the same on the block, the bias vector cast to one
    row and laid down the block's rows. -/
theorem addRowRelu_rows (A : FVec Ideal ⟨2, ![M, n]⟩ .f32) (bias : FVec Ideal ⟨1, ![n]⟩ .f32)
    (x0 : FVec Ideal ⟨2, ![R, n]⟩ .f32) (x1 : FVec Ideal ⟨1, ![n]⟩ .f32)
    (hs : (⟨2, ![R, n]⟩ : Shape).ShapeCasts ⟨2, ![R, n]⟩) (hc : (⟨1, ![n]⟩ : Shape).ShapeCasts ⟨2, ![1, n]⟩)
    (hb : (⟨2, ![1, n]⟩ : Shape).Broadcasts ⟨2, ![R, n]⟩) (o : ℕ) (ho : o + R ≤ M)
    (h0 : ∀ (a : Fin R) (b : Fin n), x0 (ix2 a b) = A (ix2 (⟨o + a.val, by have := a.isLt; omega⟩ : Fin M) b))
    (h1 : ∀ b : Fin n, x1 (ix1 b) = bias (ix1 b)) (a : Fin R) (b : Fin n) :
    maximumf (addf (shapeCast ⟨2, ![R, n]⟩ x0 hs) (broadcastTo ⟨2, ![R, n]⟩ (shapeCast ⟨2, ![1, n]⟩ x1 hc) hb))
        (broadcast ⟨2, ![R, n]⟩ (Scalar.ofBits (F := Ideal) .f32 0x00000000#32)) (ix2 a b)
      = addRowRelu A (shapeCast ⟨2, ![1, n]⟩ bias hc) (ix2 (⟨o + a.val, by have := a.isLt; omega⟩ : Fin M) b) := by
  rw [maximumf_apply, addf_apply, broadcast_apply, shapeCast_self,
    Cert.Lib.MatDot.broadcastTo_vec_rows_apply hc hb x1 a b, addRowRelu_apply, shapeCast_a_1a_apply bias hc 0 b, h0 a b, h1 b]
  rfl

/-- The product plus the bias row, on a block of rows: rows `o … o+R-1` of `addRow (matProd X W) bias`. -/
theorem matmul_addRow_rows (w : DotDims.WF ⟨2, ![R, k]⟩ ⟨2, ![k, n]⟩ ⟨2, ![R, n]⟩ [1] [0] [0] [1] [] [])
    (prec : Option ContractPrecision) (X : FVec Ideal ⟨2, ![M, k]⟩ .f32) (W : FVec Ideal ⟨2, ![k, n]⟩ .f32)
    (bias : FVec Ideal ⟨1, ![n]⟩ .f32)
    (x0 : FVec Ideal ⟨2, ![R, k]⟩ φ₁) (x1 : FVec Ideal ⟨2, ![k, n]⟩ φ₂) (x2 : FVec Ideal ⟨1, ![n]⟩ .f32)
    (hc : (⟨1, ![n]⟩ : Shape).ShapeCasts ⟨2, ![1, n]⟩) (hb : (⟨2, ![1, n]⟩ : Shape).Broadcasts ⟨2, ![R, n]⟩)
    (o : ℕ) (ho : o + R ≤ M)
    (h0 : ∀ (a : Fin R) (c : Fin k), x0 (ix2 a c) = X (ix2 (⟨o + a.val, by have := a.isLt; omega⟩ : Fin M) c))
    (h1 : ∀ (c : Fin k) (b : Fin n), x1 (ix2 c b) = W (ix2 c b))
    (h2 : ∀ b : Fin n, x2 (ix1 b) = bias (ix1 b)) (a : Fin R) (b : Fin n) :
    addf (matmul (⟨[1], [0], [0], [1], [], [], w⟩ : DotDims ⟨2, ![R, k]⟩ ⟨2, ![k, n]⟩ ⟨2, ![R, n]⟩) prec x0 x1
          (constant (F := Ideal) ⟨2, ![R, n]⟩ .f32 0x00000000#32))
        (broadcastTo ⟨2, ![R, n]⟩ (shapeCast ⟨2, ![1, n]⟩ x2 hc) hb) (ix2 a b)
      = addRow (matProd X W) (shapeCast ⟨2, ![1, n]⟩ bias hc) (ix2 (⟨o + a.val, by have := a.isLt; omega⟩ : Fin M) b) := by
  rw [addf_apply, matmul_rows w prec X W x0 x1 o ho h0 h1 a b,
    Cert.Lib.MatDot.broadcastTo_vec_rows_apply hc hb x2 a b, addRow_apply, shapeCast_a_1a_apply bias hc 0 b, h2 b]

end Cert.RowTiles

end
-- ==== Proof.Project0.lean ====
/-
  Kernel region 0 (the projection of the node rows onto a weight matrix, 25 blocks of 2000 rows): what it leaves in its
  output array, as one function of the two arrays it reads.

  At a grid point the body loads the block of 2000 rows of the node array and the whole 128 by 128 weight matrix, changes
  their float format (nothing, on the extended reals), multiplies them into a zero accumulator and stores the product,
  its format changed again, as the block of 2000 rows of the output. Entry (a, b) of that block is the sum over c of the
  block's (a, c) times the weight's (c, b), and the block's row a is row 2000·t + a of the array: the block written back
  is the rows 2000·t … 2000·t + 1999 of the matrix product of the whole node array by the weights. The 25 blocks tile
  the 50000 rows, so the output array ends as that whole product.
-/
import proofs.«105373_j14980845928717_1_alg».proof.Proof.Gen.KernelIdeal.Frame
import proofs.«105373_j14980845928717_1_alg».proof.Proof.LibRowTiles
import Idealize.ShloMosaic.Lib.Pipeline.Value
import Idealize.ShloMosaic.Lib.ValueIdx

set_option maxRecDepth 16384

noncomputable section

namespace Cert.KernelIdeal.Project0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b)) (c : Dev nD)

/-- The node rows and the weight matrix as the region finds them. -/
abbrev rowsIn : FVec Ideal ⟨2, ![50000, 128]⟩ .f32 := V c (Pipeline.arrRef spec0 0)
abbrev weightIn : FVec Ideal ⟨2, ![128, 128]⟩ .f32 := V c (Pipeline.arrRef spec0 1)

theorem zeros2 : (![0, 0] : Fin 2 → Nat) = fun _ => 0 := funext fun a => by fin_cases a <;> rfl

/-- The printed index maps, decided over the 25 grid points: the node window and the output window move together down
    the rows, one block per point; the weight window stays at block (0, 0). -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every one of the 25 row blocks is some point's. -/
theorem index_onto : ∀ q : Fin 25, ∃ t : Fin cfg0.N, win0_2.index t (0 : Fin 2) = q.val ∧ win0_2.index t (1 : Fin 2) = 0 :=
  (by decide +kernel : ∀ q : Fin 25, ∃ t : Fin grid0.N, _)

/-- Row `a` of the node block at point `t` is row `2000·(block number) + a` of the node array. -/
theorem rows_block (t : Fin cfg0.N) (a : Fin 2000) (k : Fin 128) :
    iblk0 V c 0 t (ix2 a k)
      = rowsIn V c (ix2 (⟨win0_2.index t (0 : Fin 2) * 2000 + a.val, by
          have := (index_facts t).2.2.2.2.2; have := a.isLt; omega⟩ : Fin 50000) k) := by
  obtain ⟨e0, e1, -, -, -, -⟩ := index_facts t
  show V c (Pipeline.arrRef spec0 0) (((cfg0.win 0).blk t).view.emb (ix2 a k)) = V c (Pipeline.arrRef spec0 0) _
  refine congrArg (V c (Pipeline.arrRef spec0 0)) ?_
  funext ax; apply Fin.ext
  match ax with
  | ⟨0, _⟩ => show win0_0.index t (0 : Fin 2) * 2000 + 1 * a.val = win0_2.index t (0 : Fin 2) * 2000 + a.val; omega
  | ⟨1, _⟩ => show win0_0.index t (1 : Fin 2) * 128 + 1 * k.val = k.val; omega

/-- The weight block at any point is the whole weight matrix. -/
theorem weight_block (t : Fin cfg0.N) (k : Fin 128) (b : Fin 128) :
    iblk0 V c 1 t (ix2 k b) = weightIn V c (ix2 k b) := by
  obtain ⟨-, -, e2, e3, -, -⟩ := index_facts t
  show V c (Pipeline.arrRef spec0 1) (((cfg0.win 1).blk t).view.emb (ix2 k b)) = V c (Pipeline.arrRef spec0 1) _
  refine congrArg (V c (Pipeline.arrRef spec0 1)) ?_
  funext ax; apply Fin.ext
  match ax with
  | ⟨0, _⟩ => show win0_1.index t (0 : Fin 2) * 128 + 1 * k.val = k.val; omega
  | ⟨1, _⟩ => show win0_1.index t (1 : Fin 2) * 128 + 1 * b.val = b.val; omega

set_option maxHeartbeats 2000000 in
/-- What point `t` writes back is the block of rows of the whole product. -/
theorem flushed_eq (t : Fin cfg0.N) :
    (dat0 V c).flushed 2 t = ((cfg0.win 2).blk t).view.read (Elt Ideal) (matProd (rowsIn V c) (weightIn V c)) := by
  show (cfg0.win 2).cut (grid0.coords t) ((dat0 V c).after 2 t) = _
  rw [after0_2]
  unfold out0_2
  rw [View.canon_unit_zero zeros2]
  simp only [View.ld_unit_zero (S := S2000x128) zeros2, View.ld_unit_zero (S := S128x128) zeros2]
  funext j
  obtain ⟨a, b, rfl⟩ : ∃ (a : Fin 2000) (b : Fin 128), j = ix2 a b := ⟨j 0, j 1, eq_ix2 j⟩
  obtain ⟨-, -, -, -, e4, e5⟩ := index_facts t
  have hemb : ((cfg0.win 2).blk t).view.emb (ix2 a b)
      = ix2 (⟨win0_2.index t (0 : Fin 2) * 2000 + a.val, by have := a.isLt; omega⟩ : Fin 50000) b := by
    funext ax; apply Fin.ext
    match ax with
    | ⟨0, _⟩ => show win0_2.index t (0 : Fin 2) * 2000 + 1 * a.val = win0_2.index t (0 : Fin 2) * 2000 + a.val; omega
    | ⟨1, _⟩ => show win0_2.index t (1 : Fin 2) * 128 + 1 * b.val = b.val; omega
  show matmul (φ₁ := .bf16) (φ₂ := .bf16) (⟨[1], [0], [0], [1], [], [], dot_S2000x128_S128x128_S2000x128_1_0_0_1_n_n_wf⟩ : DotDims ⟨2, ![2000, 128]⟩ ⟨2, ![128, 128]⟩ ⟨2, ![2000, 128]⟩) none
      (iblk0 V c 0 t) (iblk0 V c 1 t) (constant (F := Ideal) ⟨2, ![2000, 128]⟩ .f32 0x00000000#32) (ix2 a b)
    = matProd (rowsIn V c) (weightIn V c) (((cfg0.win 2).blk t).view.emb (ix2 a b))
  rw [hemb]
  exact Cert.RowTiles.matmul_rows dot_S2000x128_S128x128_S2000x128_1_0_0_1_n_n_wf none (rowsIn V c) (weightIn V c)
    (iblk0 V c 0 t) (iblk0 V c 1 t) (win0_2.index t (0 : Fin 2) * 2000) (by omega)
    (fun a k => rows_block V c t a k) (fun k b => weight_block V c t k b) a b

/-- An index of the output array is in point `t`'s block iff each coordinate is in the block's range on its axis. -/
theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v31).slice (win0_2.rect t)).set ↔ _
  rw [View.set_slice_whole, Rect.mem_set_unit]
  exact Iff.rfl

/-- The 25 blocks cover the output array: row `r` is in block `r / 2000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, q0, q1⟩ := index_onto ⟨(i 0).val / 2000, by omega⟩
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; simp only at q0; omega
  | ⟨1, _⟩ => show win0_2.index t (1 : Fin 2) * 128 ≤ (i 1).val ∧ (i 1).val < win0_2.index t (1 : Fin 2) * 128 + 128; omega

/-- THE OUTPUT ARRAY after the region: the matrix product of the node rows by the weights, as the region found them. -/
theorem product (V : (c : Dev nD) → (b : Ref sig .tc) → Buf (Elt Ideal) ((c : Thread nD τ).loc b)) (c : Dev nD) :
    (dat0 V c).arrAt 2 cfg0.N = matProd (rowsIn V c) (weightIn V c) :=
  (dat0 V c).arrAt_eq_of_cover 2 (matProd (rowsIn V c) (weightIn V c)) (fun t _ => flushed_eq V c t) (covered)

end Cert.KernelIdeal.Project0

end
-- ==== Proof.Project2.lean ====
/-
  Kernel region 2 (the projection of the node rows onto a weight matrix, 25 blocks of 2000 rows): what it leaves in its
  output array, as one function of the two arrays it reads.

  At a grid point the body loads the block of 2000 rows of the node array and the whole 128 by 128 weight matrix, changes
  their float format (nothing, on the extended reals; the node block first passes a reshape to its own shape), multiplies them into a zero accumulator and stores the product,
  its format changed again, as the block of 2000 rows of the output. Entry (a, b) of that block is the sum over c of the
  block's (a, c) times the weight's (c, b), and the block's row a is row 2000·t + a of the array: the block written back
  is the rows 2000·t … 2000·t + 1999 of the matrix product of the whole node array by the weights. The 25 blocks tile
  the 50000 rows, so the output array ends as that whole product.
-/
import proofs.«105373_j14980845928717_1_alg».proof.Proof.Gen.KernelIdeal.Frame
import proofs.«105373_j14980845928717_1_alg».proof.Proof.LibRowTiles
import Idealize.ShloMosaic.Lib.Pipeline.Value
import Idealize.ShloMosaic.Lib.ValueIdx

set_option maxRecDepth 16384

noncomputable section

namespace Cert.KernelIdeal.Project2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b)) (c : Dev nD)

/-- The node rows and the weight matrix as the region finds them. -/
abbrev rowsIn : FVec Ideal ⟨2, ![50000, 128]⟩ .f32 := V c (Pipeline.arrRef spec2 0)
abbrev weightIn : FVec Ideal ⟨2, ![128, 128]⟩ .f32 := V c (Pipeline.arrRef spec2 1)

theorem zeros2 : (![0, 0] : Fin 2 → Nat) = fun _ => 0 := funext fun a => by fin_cases a <;> rfl

/-- The printed index maps, decided over the 25 grid points: the node window and the output window move together down
    the rows, one block per point; the weight window stays at block (0, 0). -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 24 :=
  (by decide +kernel : ∀ t : Fin grid2.N, _)

/-- Every one of the 25 row blocks is some point's. -/
theorem index_onto : ∀ q : Fin 25, ∃ t : Fin cfg2.N, win2_2.index t (0 : Fin 2) = q.val ∧ win2_2.index t (1 : Fin 2) = 0 :=
  (by decide +kernel : ∀ q : Fin 25, ∃ t : Fin grid2.N, _)

/-- Row `a` of the node block at point `t` is row `2000·(block number) + a` of the node array. -/
theorem rows_block (t : Fin cfg2.N) (a : Fin 2000) (k : Fin 128) :
    iblk2 V c 0 t (ix2 a k)
      = rowsIn V c (ix2 (⟨win2_2.index t (0 : Fin 2) * 2000 + a.val, by
          have := (index_facts t).2.2.2.2.2; have := a.isLt; omega⟩ : Fin 50000) k) := by
  obtain ⟨e0, e1, -, -, -, -⟩ := index_facts t
  show V c (Pipeline.arrRef spec2 0) (((cfg2.win 0).blk t).view.emb (ix2 a k)) = V c (Pipeline.arrRef spec2 0) _
  refine congrArg (V c (Pipeline.arrRef spec2 0)) ?_
  funext ax; apply Fin.ext
  match ax with
  | ⟨0, _⟩ => show win2_0.index t (0 : Fin 2) * 2000 + 1 * a.val = win2_2.index t (0 : Fin 2) * 2000 + a.val; omega
  | ⟨1, _⟩ => show win2_0.index t (1 : Fin 2) * 128 + 1 * k.val = k.val; omega

/-- The weight block at any point is the whole weight matrix. -/
theorem weight_block (t : Fin cfg2.N) (k : Fin 128) (b : Fin 128) :
    iblk2 V c 1 t (ix2 k b) = weightIn V c (ix2 k b) := by
  obtain ⟨-, -, e2, e3, -, -⟩ := index_facts t
  show V c (Pipeline.arrRef spec2 1) (((cfg2.win 1).blk t).view.emb (ix2 k b)) = V c (Pipeline.arrRef spec2 1) _
  refine congrArg (V c (Pipeline.arrRef spec2 1)) ?_
  funext ax; apply Fin.ext
  match ax with
  | ⟨0, _⟩ => show win2_1.index t (0 : Fin 2) * 128 + 1 * k.val = k.val; omega
  | ⟨1, _⟩ => show win2_1.index t (1 : Fin 2) * 128 + 1 * b.val = b.val; omega

set_option maxHeartbeats 2000000 in
/-- What point `t` writes back is the block of rows of the whole product. -/
theorem flushed_eq (t : Fin cfg2.N) :
    (dat2 V c).flushed 2 t = ((cfg2.win 2).blk t).view.read (Elt Ideal) (matProd (rowsIn V c) (weightIn V c)) := by
  show (cfg2.win 2).cut (grid2.coords t) ((dat2 V c).after 2 t) = _
  rw [after2_2]
  unfold out2_2
  rw [View.canon_unit_zero zeros2]
  simp only [View.ld_unit_zero (S := S2000x128) zeros2, View.ld_unit_zero (S := S128x128) zeros2]
  funext j
  obtain ⟨a, b, rfl⟩ : ∃ (a : Fin 2000) (b : Fin 128), j = ix2 a b := ⟨j 0, j 1, eq_ix2 j⟩
  obtain ⟨-, -, -, -, e4, e5⟩ := index_facts t
  have hemb : ((cfg2.win 2).blk t).view.emb (ix2 a b)
      = ix2 (⟨win2_2.index t (0 : Fin 2) * 2000 + a.val, by have := a.isLt; omega⟩ : Fin 50000) b := by
    funext ax; apply Fin.ext
    match ax with
    | ⟨0, _⟩ => show win2_2.index t (0 : Fin 2) * 2000 + 1 * a.val = win2_2.index t (0 : Fin 2) * 2000 + a.val; omega
    | ⟨1, _⟩ => show win2_2.index t (1 : Fin 2) * 128 + 1 * b.val = b.val; omega
  show matmul (φ₁ := .bf16) (φ₂ := .bf16) (⟨[1], [0], [0], [1], [], [], dot_S2000x128_S128x128_S2000x128_1_0_0_1_n_n_wf⟩ : DotDims ⟨2, ![2000, 128]⟩ ⟨2, ![128, 128]⟩ ⟨2, ![2000, 128]⟩) none
      (shapeCast ⟨2, ![2000, 128]⟩ (iblk2 V c 0 t) shapeCasts_S2000x128_S2000x128) (iblk2 V c 1 t) (constant (F := Ideal) ⟨2, ![2000, 128]⟩ .f32 0x00000000#32) (ix2 a b)
    = matProd (rowsIn V c) (weightIn V c) (((cfg2.win 2).blk t).view.emb (ix2 a b))
  rw [hemb, shapeCast_self]
  exact Cert.RowTiles.matmul_rows dot_S2000x128_S128x128_S2000x128_1_0_0_1_n_n_wf none (rowsIn V c) (weightIn V c)
    (iblk2 V c 0 t) (iblk2 V c 1 t) (win2_2.index t (0 : Fin 2) * 2000) (by omega)
    (fun a k => rows_block V c t a k) (fun k b => weight_block V c t k b) a b

/-- An index of the output array is in point `t`'s block iff each coordinate is in the block's range on its axis. -/
theorem mem_block (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- The 25 blocks cover the output array: row `r` is in block `r / 2000`. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, q0, q1⟩ := index_onto ⟨(i 0).val / 2000, by omega⟩
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; simp only at q0; omega
  | ⟨1, _⟩ => show win2_2.index t (1 : Fin 2) * 128 ≤ (i 1).val ∧ (i 1).val < win2_2.index t (1 : Fin 2) * 128 + 128; omega

/-- THE OUTPUT ARRAY after the region: the matrix product of the node rows by the weights, as the region found them. -/
theorem product (V : (c : Dev nD) → (b : Ref sig .tc) → Buf (Elt Ideal) ((c : Thread nD τ).loc b)) (c : Dev nD) :
    (dat2 V c).arrAt 2 cfg2.N = matProd (rowsIn V c) (weightIn V c) :=
  (dat2 V c).arrAt_eq_of_cover 2 (matProd (rowsIn V c) (weightIn V c)) (fun t _ => flushed_eq V c t) (covered)

end Cert.KernelIdeal.Project2

end
-- ==== Proof.Project4.lean ====
/-
  Kernel region 4 (the projection of the node rows onto a weight matrix, 25 blocks of 2000 rows): what it leaves in its
  output array, as one function of the two arrays it reads.

  At a grid point the body loads the block of 2000 rows of the node array and the whole 128 by 128 weight matrix, changes
  their float format (nothing, on the extended reals; the node block first passes a reshape to its own shape), multiplies them into a zero accumulator and stores the product,
  its format changed again, as the block of 2000 rows of the output. Entry (a, b) of that block is the sum over c of the
  block's (a, c) times the weight's (c, b), and the block's row a is row 2000·t + a of the array: the block written back
  is the rows 2000·t … 2000·t + 1999 of the matrix product of the whole node array by the weights. The 25 blocks tile
  the 50000 rows, so the output array ends as that whole product.
-/
import proofs.«105373_j14980845928717_1_alg».proof.Proof.Gen.KernelIdeal.Frame
import proofs.«105373_j14980845928717_1_alg».proof.Proof.LibRowTiles
import Idealize.ShloMosaic.Lib.Pipeline.Value
import Idealize.ShloMosaic.Lib.ValueIdx

set_option maxRecDepth 16384

noncomputable section

namespace Cert.KernelIdeal.Project4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b)) (c : Dev nD)

/-- The node rows and the weight matrix as the region finds them. -/
abbrev rowsIn : FVec Ideal ⟨2, ![50000, 128]⟩ .f32 := V c (Pipeline.arrRef spec4 0)
abbrev weightIn : FVec Ideal ⟨2, ![128, 128]⟩ .f32 := V c (Pipeline.arrRef spec4 1)

theorem zeros2 : (![0, 0] : Fin 2 → Nat) = fun _ => 0 := funext fun a => by fin_cases a <;> rfl

/-- The printed index maps, decided over the 25 grid points: the node window and the output window move together down
    the rows, one block per point; the weight window stays at block (0, 0). -/
theorem index_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 24 :=
  (by decide +kernel : ∀ t : Fin grid4.N, _)

/-- Every one of the 25 row blocks is some point's. -/
theorem index_onto : ∀ q : Fin 25, ∃ t : Fin cfg4.N, win4_2.index t (0 : Fin 2) = q.val ∧ win4_2.index t (1 : Fin 2) = 0 :=
  (by decide +kernel : ∀ q : Fin 25, ∃ t : Fin grid4.N, _)

/-- Row `a` of the node block at point `t` is row `2000·(block number) + a` of the node array. -/
theorem rows_block (t : Fin cfg4.N) (a : Fin 2000) (k : Fin 128) :
    iblk4 V c 0 t (ix2 a k)
      = rowsIn V c (ix2 (⟨win4_2.index t (0 : Fin 2) * 2000 + a.val, by
          have := (index_facts t).2.2.2.2.2; have := a.isLt; omega⟩ : Fin 50000) k) := by
  obtain ⟨e0, e1, -, -, -, -⟩ := index_facts t
  show V c (Pipeline.arrRef spec4 0) (((cfg4.win 0).blk t).view.emb (ix2 a k)) = V c (Pipeline.arrRef spec4 0) _
  refine congrArg (V c (Pipeline.arrRef spec4 0)) ?_
  funext ax; apply Fin.ext
  match ax with
  | ⟨0, _⟩ => show win4_0.index t (0 : Fin 2) * 2000 + 1 * a.val = win4_2.index t (0 : Fin 2) * 2000 + a.val; omega
  | ⟨1, _⟩ => show win4_0.index t (1 : Fin 2) * 128 + 1 * k.val = k.val; omega

/-- The weight block at any point is the whole weight matrix. -/
theorem weight_block (t : Fin cfg4.N) (k : Fin 128) (b : Fin 128) :
    iblk4 V c 1 t (ix2 k b) = weightIn V c (ix2 k b) := by
  obtain ⟨-, -, e2, e3, -, -⟩ := index_facts t
  show V c (Pipeline.arrRef spec4 1) (((cfg4.win 1).blk t).view.emb (ix2 k b)) = V c (Pipeline.arrRef spec4 1) _
  refine congrArg (V c (Pipeline.arrRef spec4 1)) ?_
  funext ax; apply Fin.ext
  match ax with
  | ⟨0, _⟩ => show win4_1.index t (0 : Fin 2) * 128 + 1 * k.val = k.val; omega
  | ⟨1, _⟩ => show win4_1.index t (1 : Fin 2) * 128 + 1 * b.val = b.val; omega

set_option maxHeartbeats 2000000 in
/-- What point `t` writes back is the block of rows of the whole product. -/
theorem flushed_eq (t : Fin cfg4.N) :
    (dat4 V c).flushed 2 t = ((cfg4.win 2).blk t).view.read (Elt Ideal) (matProd (rowsIn V c) (weightIn V c)) := by
  show (cfg4.win 2).cut (grid4.coords t) ((dat4 V c).after 2 t) = _
  rw [after4_2]
  unfold out4_2
  rw [View.canon_unit_zero zeros2]
  simp only [View.ld_unit_zero (S := S2000x128) zeros2, View.ld_unit_zero (S := S128x128) zeros2]
  funext j
  obtain ⟨a, b, rfl⟩ : ∃ (a : Fin 2000) (b : Fin 128), j = ix2 a b := ⟨j 0, j 1, eq_ix2 j⟩
  obtain ⟨-, -, -, -, e4, e5⟩ := index_facts t
  have hemb : ((cfg4.win 2).blk t).view.emb (ix2 a b)
      = ix2 (⟨win4_2.index t (0 : Fin 2) * 2000 + a.val, by have := a.isLt; omega⟩ : Fin 50000) b := by
    funext ax; apply Fin.ext
    match ax with
    | ⟨0, _⟩ => show win4_2.index t (0 : Fin 2) * 2000 + 1 * a.val = win4_2.index t (0 : Fin 2) * 2000 + a.val; omega
    | ⟨1, _⟩ => show win4_2.index t (1 : Fin 2) * 128 + 1 * b.val = b.val; omega
  show matmul (φ₁ := .bf16) (φ₂ := .bf16) (⟨[1], [0], [0], [1], [], [], dot_S2000x128_S128x128_S2000x128_1_0_0_1_n_n_wf⟩ : DotDims ⟨2, ![2000, 128]⟩ ⟨2, ![128, 128]⟩ ⟨2, ![2000, 128]⟩) none
      (shapeCast ⟨2, ![2000, 128]⟩ (iblk4 V c 0 t) shapeCasts_S2000x128_S2000x128) (iblk4 V c 1 t) (constant (F := Ideal) ⟨2, ![2000, 128]⟩ .f32 0x00000000#32) (ix2 a b)
    = matProd (rowsIn V c) (weightIn V c) (((cfg4.win 2).blk t).view.emb (ix2 a b))
  rw [hemb, shapeCast_self]
  exact Cert.RowTiles.matmul_rows dot_S2000x128_S128x128_S2000x128_1_0_0_1_n_n_wf none (rowsIn V c) (weightIn V c)
    (iblk4 V c 0 t) (iblk4 V c 1 t) (win4_2.index t (0 : Fin 2) * 2000) (by omega)
    (fun a k => rows_block V c t a k) (fun k b => weight_block V c t k b) a b

/-- An index of the output array is in point `t`'s block iff each coordinate is in the block's range on its axis. -/
theorem mem_block (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v61).slice (win4_2.rect t)).set ↔ _
  rw [View.set_slice_whole, Rect.mem_set_unit]
  exact Iff.rfl

/-- The 25 blocks cover the output array: row `r` is in block `r / 2000`. -/
theorem covered (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, q0, q1⟩ := index_onto ⟨(i 0).val / 2000, by omega⟩
  refine ⟨t, flush4_2 t, ?_⟩
  rw [mem_block]
  intro a
  match a with
  | ⟨0, _⟩ => show win4_2.index t (0 : Fin 2) * 2000 ≤ (i 0).val ∧ (i 0).val < win4_2.index t (0 : Fin 2) * 2000 + 2000; simp only at q0; omega
  | ⟨1, _⟩ => show win4_2.index t (1 : Fin 2) * 128 ≤ (i 1).val ∧ (i 1).val < win4_2.index t (1 : Fin 2) * 128 + 128; omega

/-- THE OUTPUT ARRAY after the region: the matrix product of the node rows by the weights, as the region found them. -/
theorem product (V : (c : Dev nD) → (b : Ref sig .tc) → Buf (Elt Ideal) ((c : Thread nD τ).loc b)) (c : Dev nD) :
    (dat4 V c).arrAt 2 cfg4.N = matProd (rowsIn V c) (weightIn V c) :=
  (dat4 V c).arrAt_eq_of_cover 2 (matProd (rowsIn V c) (weightIn V c)) (fun t _ => flushed_eq V c t) (covered)

end Cert.KernelIdeal.Project4

end
-- ==== Proof.BiasRelu1.lean ====
/-
  Kernel region 1 (the bias added to every node row, then the rectifier, 25 blocks of 2000 rows): what it leaves in its
  output array, as one function of the two arrays it reads.

  At a grid point the body loads the block of 2000 rows of the aggregated array and the whole bias vector, lays the bias
  (cast to one row) down the 2000 rows, adds, takes the maximum with zero and stores the result as the block of the
  output. Entry (a, b) of that block is max (block (a, b) + bias b, 0), and the block's row a is row 2000·t + a of the
  array: the block written back is the rows 2000·t … 2000·t + 1999 of "add the bias row, then the rectifier" taken on
  the whole array. The 25 blocks tile the 50000 rows.
-/
import proofs.«105373_j14980845928717_1_alg».proof.Proof.Gen.KernelIdeal.Frame
import proofs.«105373_j14980845928717_1_alg».proof.Proof.LibRowTiles
import Idealize.ShloMosaic.Lib.Pipeline.Value
import Idealize.ShloMosaic.Lib.ValueIdx

set_option maxRecDepth 16384

noncomputable section

namespace Cert.KernelIdeal.BiasRelu1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b)) (c : Dev nD)

/-- The aggregated node rows and the bias vector as the region finds them. -/
abbrev rowsIn : FVec Ideal ⟨2, ![50000, 128]⟩ .f32 := V c (Pipeline.arrRef spec1 0)
abbrev biasIn : FVec Ideal ⟨1, ![128]⟩ .f32 := V c (Pipeline.arrRef spec1 1)

theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the 25 grid points: the input window and the output window move together down
    the rows, one block per point; the bias window stays at block 0. -/
theorem index_facts : ∀ t : Fin cfg1.N, win1_0.index t (0 : Fin 2) = win1_2.index t (0 : Fin 2)
    ∧ win1_0.index t (1 : Fin 2) = 0 ∧ win1_1.index t (0 : Fin 1) = 0
    ∧ win1_2.index t (1 : Fin 2) = 0 ∧ win1_2.index t (0 : Fin 2) ≤ 24 :=
  (by decide +kernel : ∀ t : Fin grid1.N, _)

/-- Every one of the 25 row blocks is some point's. -/
theorem index_onto : ∀ q : Fin 25, ∃ t : Fin cfg1.N, win1_2.index t (0 : Fin 2) = q.val ∧ win1_2.index t (1 : Fin 2) = 0 :=
  (by decide +kernel : ∀ q : Fin 25, ∃ t : Fin grid1.N, _)

/-- Row `a` of the input block at point `t` is row `2000·(block number) + a` of the input array. -/
theorem rows_block (t : Fin cfg1.N) (a : Fin 2000) (k : Fin 128) :
    iblk1 V c 0 t (ix2 a k)
      = rowsIn V c (ix2 (⟨win1_2.index t (0 : Fin 2) * 2000 + a.val, by
          have := (index_facts t).2.2.2.2; have := a.isLt; omega⟩ : Fin 50000) k) := by
  obtain ⟨e0, e1, -, -, -⟩ := index_facts t
  show V c (Pipeline.arrRef spec1 0) (((cfg1.win 0).blk t).view.emb (ix2 a k)) = V c (Pipeline.arrRef spec1 0) _
  refine congrArg (V c (Pipeline.arrRef spec1 0)) ?_
  funext ax; apply Fin.ext
  match ax with
  | ⟨0, _⟩ => show win1_0.index t (0 : Fin 2) * 2000 + 1 * a.val = win1_2.index t (0 : Fin 2) * 2000 + a.val; omega
  | ⟨1, _⟩ => show win1_0.index t (1 : Fin 2) * 128 + 1 * k.val = k.val; omega

/-- The bias block at any point is the whole bias vector. -/
theorem bias_block (t : Fin cfg1.N) (b : Fin 128) : iblk1 V c 1 t (ix1 b) = biasIn V c (ix1 b) := by
  obtain ⟨-, -, e2, -, -⟩ := index_facts t
  show V c (Pipeline.arrRef spec1 1) (((cfg1.win 1).blk t).view.emb (ix1 b)) = V c (Pipeline.arrRef spec1 1) _
  refine congrArg (V c (Pipeline.arrRef spec1 1)) ?_
  funext ax; apply Fin.ext
  match ax with
  | ⟨0, _⟩ => show win1_1.index t (0 : Fin 1) * 128 + 1 * b.val = b.val; omega

/-- What point `t` writes back is the block of rows of the whole step. -/
theorem flushed_eq (t : Fin cfg1.N) :
    (dat1 V c).flushed 2 t = ((cfg1.win 2).blk t).view.read (Elt Ideal)
      (addRowRelu (rowsIn V c) (shapeCast ⟨2, ![1, 128]⟩ (biasIn V c) shapeCasts_S128_S1x128)) := by
  show (cfg1.win 2).cut (grid1.coords t) ((dat1 V c).after 2 t) = _
  rw [after1_2]
  unfold out1_2
  rw [View.canon_unit_zero zeros2]
  simp only [View.ld_unit_zero (S := S2000x128) zeros2, View.ld_unit_zero (S := S128) zeros1]
  funext j
  obtain ⟨a, b, rfl⟩ : ∃ (a : Fin 2000) (b : Fin 128), j = ix2 a b := ⟨j 0, j 1, eq_ix2 j⟩
  obtain ⟨-, -, -, e4, e5⟩ := index_facts t
  have hemb : ((cfg1.win 2).blk t).view.emb (ix2 a b)
      = ix2 (⟨win1_2.index t (0 : Fin 2) * 2000 + a.val, by have := a.isLt; omega⟩ : Fin 50000) b := by
    funext ax; apply Fin.ext
    match ax with
    | ⟨0, _⟩ => show win1_2.index t (0 : Fin 2) * 2000 + 1 * a.val = win1_2.index t (0 : Fin 2) * 2000 + a.val; omega
    | ⟨1, _⟩ => show win1_2.index t (1 : Fin 2) * 128 + 1 * b.val = b.val; omega
  show maximumf (addf (shapeCast ⟨2, ![2000, 128]⟩ (iblk1 V c 0 t) shapeCasts_S2000x128_S2000x128)
        (broadcastTo ⟨2, ![2000, 128]⟩ (shapeCast ⟨2, ![1, 128]⟩ (iblk1 V c 1 t) shapeCasts_S128_S1x128) broadcasts_S1x128_S2000x128))
      (broadcast ⟨2, ![2000, 128]⟩ (Scalar.ofBits (F := Ideal) .f32 0x00000000#32)) (ix2 a b)
    = addRowRelu (rowsIn V c) (shapeCast ⟨2, ![1, 128]⟩ (biasIn V c) shapeCasts_S128_S1x128) (((cfg1.win 2).blk t).view.emb (ix2 a b))
  rw [hemb]
  exact Cert.RowTiles.addRowRelu_rows (rowsIn V c) (biasIn V c) (iblk1 V c 0 t) (iblk1 V c 1 t)
    shapeCasts_S2000x128_S2000x128 shapeCasts_S128_S1x128 broadcasts_S1x128_S2000x128
    (win1_2.index t (0 : Fin 2) * 2000) (by omega)
    (fun a k => rows_block V c t a k) (fun b => bias_block V c t b) a b

/-- An index of the output array is in point `t`'s block iff each coordinate is in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- The 25 blocks cover the output array: row `r` is in block `r / 2000`. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, q0, q1⟩ := index_onto ⟨(i 0).val / 2000, by omega⟩
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; simp only at q0; omega
  | ⟨1, _⟩ => show win1_2.index t (1 : Fin 2) * 128 ≤ (i 1).val ∧ (i 1).val < win1_2.index t (1 : Fin 2) * 128 + 128; omega

/-- THE OUTPUT ARRAY after the region: the bias added to every row of the input array, then the rectifier. -/
theorem biased (V : (c : Dev nD) → (b : Ref sig .tc) → Buf (Elt Ideal) ((c : Thread nD τ).loc b)) (c : Dev nD) :
    (dat1 V c).arrAt 2 cfg1.N = addRowRelu (rowsIn V c) (shapeCast ⟨2, ![1, 128]⟩ (biasIn V c) shapeCasts_S128_S1x128) :=
  (dat1 V c).arrAt_eq_of_cover 2 _ (fun t _ => flushed_eq V c t) (covered)

end Cert.KernelIdeal.BiasRelu1

end
-- ==== Proof.BiasRelu3.lean ====
/-
  Kernel region 3 (the bias added to every node row, then the rectifier, 25 blocks of 2000 rows): what it leaves in its
  output array, as one function of the two arrays it reads.

  At a grid point the body loads the block of 2000 rows of the aggregated array and the whole bias vector, lays the bias
  (cast to one row) down the 2000 rows, adds, takes the maximum with zero and stores the result as the block of the
  output. Entry (a, b) of that block is max (block (a, b) + bias b, 0), and the block's row a is row 2000·t + a of the
  array: the block written back is the rows 2000·t … 2000·t + 1999 of "add the bias row, then the rectifier" taken on
  the whole array. The 25 blocks tile the 50000 rows.
-/
import proofs.«105373_j14980845928717_1_alg».proof.Proof.Gen.KernelIdeal.Frame
import proofs.«105373_j14980845928717_1_alg».proof.Proof.LibRowTiles
import Idealize.ShloMosaic.Lib.Pipeline.Value
import Idealize.ShloMosaic.Lib.ValueIdx

set_option maxRecDepth 16384

noncomputable section

namespace Cert.KernelIdeal.BiasRelu3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b)) (c : Dev nD)

/-- The aggregated node rows and the bias vector as the region finds them. -/
abbrev rowsIn : FVec Ideal ⟨2, ![50000, 128]⟩ .f32 := V c (Pipeline.arrRef spec3 0)
abbrev biasIn : FVec Ideal ⟨1, ![128]⟩ .f32 := V c (Pipeline.arrRef spec3 1)

theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the 25 grid points: the input window and the output window move together down
    the rows, one block per point; the bias window stays at block 0. -/
theorem index_facts : ∀ t : Fin cfg3.N, win3_0.index t (0 : Fin 2) = win3_2.index t (0 : Fin 2)
    ∧ win3_0.index t (1 : Fin 2) = 0 ∧ win3_1.index t (0 : Fin 1) = 0
    ∧ win3_2.index t (1 : Fin 2) = 0 ∧ win3_2.index t (0 : Fin 2) ≤ 24 :=
  (by decide +kernel : ∀ t : Fin grid3.N, _)

/-- Every one of the 25 row blocks is some point's. -/
theorem index_onto : ∀ q : Fin 25, ∃ t : Fin cfg3.N, win3_2.index t (0 : Fin 2) = q.val ∧ win3_2.index t (1 : Fin 2) = 0 :=
  (by decide +kernel : ∀ q : Fin 25, ∃ t : Fin grid3.N, _)

/-- Row `a` of the input block at point `t` is row `2000·(block number) + a` of the input array. -/
theorem rows_block (t : Fin cfg3.N) (a : Fin 2000) (k : Fin 128) :
    iblk3 V c 0 t (ix2 a k)
      = rowsIn V c (ix2 (⟨win3_2.index t (0 : Fin 2) * 2000 + a.val, by
          have := (index_facts t).2.2.2.2; have := a.isLt; omega⟩ : Fin 50000) k) := by
  obtain ⟨e0, e1, -, -, -⟩ := index_facts t
  show V c (Pipeline.arrRef spec3 0) (((cfg3.win 0).blk t).view.emb (ix2 a k)) = V c (Pipeline.arrRef spec3 0) _
  refine congrArg (V c (Pipeline.arrRef spec3 0)) ?_
  funext ax; apply Fin.ext
  match ax with
  | ⟨0, _⟩ => show win3_0.index t (0 : Fin 2) * 2000 + 1 * a.val = win3_2.index t (0 : Fin 2) * 2000 + a.val; omega
  | ⟨1, _⟩ => show win3_0.index t (1 : Fin 2) * 128 + 1 * k.val = k.val; omega

/-- The bias block at any point is the whole bias vector. -/
theorem bias_block (t : Fin cfg3.N) (b : Fin 128) : iblk3 V c 1 t (ix1 b) = biasIn V c (ix1 b) := by
  obtain ⟨-, -, e2, -, -⟩ := index_facts t
  show V c (Pipeline.arrRef spec3 1) (((cfg3.win 1).blk t).view.emb (ix1 b)) = V c (Pipeline.arrRef spec3 1) _
  refine congrArg (V c (Pipeline.arrRef spec3 1)) ?_
  funext ax; apply Fin.ext
  match ax with
  | ⟨0, _⟩ => show win3_1.index t (0 : Fin 1) * 128 + 1 * b.val = b.val; omega

/-- What point `t` writes back is the block of rows of the whole step. -/
theorem flushed_eq (t : Fin cfg3.N) :
    (dat3 V c).flushed 2 t = ((cfg3.win 2).blk t).view.read (Elt Ideal)
      (addRowRelu (rowsIn V c) (shapeCast ⟨2, ![1, 128]⟩ (biasIn V c) shapeCasts_S128_S1x128)) := by
  show (cfg3.win 2).cut (grid3.coords t) ((dat3 V c).after 2 t) = _
  rw [after3_2]
  unfold out3_2
  rw [View.canon_unit_zero zeros2]
  simp only [View.ld_unit_zero (S := S2000x128) zeros2, View.ld_unit_zero (S := S128) zeros1]
  funext j
  obtain ⟨a, b, rfl⟩ : ∃ (a : Fin 2000) (b : Fin 128), j = ix2 a b := ⟨j 0, j 1, eq_ix2 j⟩
  obtain ⟨-, -, -, e4, e5⟩ := index_facts t
  have hemb : ((cfg3.win 2).blk t).view.emb (ix2 a b)
      = ix2 (⟨win3_2.index t (0 : Fin 2) * 2000 + a.val, by have := a.isLt; omega⟩ : Fin 50000) b := by
    funext ax; apply Fin.ext
    match ax with
    | ⟨0, _⟩ => show win3_2.index t (0 : Fin 2) * 2000 + 1 * a.val = win3_2.index t (0 : Fin 2) * 2000 + a.val; omega
    | ⟨1, _⟩ => show win3_2.index t (1 : Fin 2) * 128 + 1 * b.val = b.val; omega
  show maximumf (addf (shapeCast ⟨2, ![2000, 128]⟩ (iblk3 V c 0 t) shapeCasts_S2000x128_S2000x128)
        (broadcastTo ⟨2, ![2000, 128]⟩ (shapeCast ⟨2, ![1, 128]⟩ (iblk3 V c 1 t) shapeCasts_S128_S1x128) broadcasts_S1x128_S2000x128))
      (broadcast ⟨2, ![2000, 128]⟩ (Scalar.ofBits (F := Ideal) .f32 0x00000000#32)) (ix2 a b)
    = addRowRelu (rowsIn V c) (shapeCast ⟨2, ![1, 128]⟩ (biasIn V c) shapeCasts_S128_S1x128) (((cfg3.win 2).blk t).view.emb (ix2 a b))
  rw [hemb]
  exact Cert.RowTiles.addRowRelu_rows (rowsIn V c) (biasIn V c) (iblk3 V c 0 t) (iblk3 V c 1 t)
    shapeCasts_S2000x128_S2000x128 shapeCasts_S128_S1x128 broadcasts_S1x128_S2000x128
    (win3_2.index t (0 : Fin 2) * 2000) (by omega)
    (fun a k => rows_block V c t a k) (fun b => bias_block V c t b) a b

/-- An index of the output array is in point `t`'s block iff each coordinate is in the block's range on its axis. -/
theorem mem_block (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v60).slice (win3_2.rect t)).set ↔ _
  rw [View.set_slice_whole, Rect.mem_set_unit]
  exact Iff.rfl

/-- The 25 blocks cover the output array: row `r` is in block `r / 2000`. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, q0, q1⟩ := index_onto ⟨(i 0).val / 2000, by omega⟩
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; simp only at q0; omega
  | ⟨1, _⟩ => show win3_2.index t (1 : Fin 2) * 128 ≤ (i 1).val ∧ (i 1).val < win3_2.index t (1 : Fin 2) * 128 + 128; omega

/-- THE OUTPUT ARRAY after the region: the bias added to every row of the input array, then the rectifier. -/
theorem biased (V : (c : Dev nD) → (b : Ref sig .tc) → Buf (Elt Ideal) ((c : Thread nD τ).loc b)) (c : Dev nD) :
    (dat3 V c).arrAt 2 cfg3.N = addRowRelu (rowsIn V c) (shapeCast ⟨2, ![1, 128]⟩ (biasIn V c) shapeCasts_S128_S1x128) :=
  (dat3 V c).arrAt_eq_of_cover 2 _ (fun t _ => flushed_eq V c t) (covered)

end Cert.KernelIdeal.BiasRelu3

end
-- ==== Proof.BiasRelu5.lean ====
/-
  Kernel region 5 (the bias added to every node row, then the rectifier, 25 blocks of 2000 rows): what it leaves in its
  output array, as one function of the two arrays it reads.

  At a grid point the body loads the block of 2000 rows of the aggregated array and the whole bias vector, lays the bias
  (cast to one row) down the 2000 rows, adds, takes the maximum with zero and stores the result as the block of the
  output. Entry (a, b) of that block is max (block (a, b) + bias b, 0), and the block's row a is row 2000·t + a of the
  array: the block written back is the rows 2000·t … 2000·t + 1999 of "add the bias row, then the rectifier" taken on
  the whole array. The 25 blocks tile the 50000 rows.
-/
import proofs.«105373_j14980845928717_1_alg».proof.Proof.Gen.KernelIdeal.Frame
import proofs.«105373_j14980845928717_1_alg».proof.Proof.LibRowTiles
import Idealize.ShloMosaic.Lib.Pipeline.Value
import Idealize.ShloMosaic.Lib.ValueIdx

set_option maxRecDepth 16384

noncomputable section

namespace Cert.KernelIdeal.BiasRelu5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b)) (c : Dev nD)

/-- The aggregated node rows and the bias vector as the region finds them. -/
abbrev rowsIn : FVec Ideal ⟨2, ![50000, 128]⟩ .f32 := V c (Pipeline.arrRef spec5 0)
abbrev biasIn : FVec Ideal ⟨1, ![128]⟩ .f32 := V c (Pipeline.arrRef spec5 1)

theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the 25 grid points: the input window and the output window move together down
    the rows, one block per point; the bias window stays at block 0. -/
theorem index_facts : ∀ t : Fin cfg5.N, win5_0.index t (0 : Fin 2) = win5_2.index t (0 : Fin 2)
    ∧ win5_0.index t (1 : Fin 2) = 0 ∧ win5_1.index t (0 : Fin 1) = 0
    ∧ win5_2.index t (1 : Fin 2) = 0 ∧ win5_2.index t (0 : Fin 2) ≤ 24 :=
  (by decide +kernel : ∀ t : Fin grid5.N, _)

/-- Every one of the 25 row blocks is some point's. -/
theorem index_onto : ∀ q : Fin 25, ∃ t : Fin cfg5.N, win5_2.index t (0 : Fin 2) = q.val ∧ win5_2.index t (1 : Fin 2) = 0 :=
  (by decide +kernel : ∀ q : Fin 25, ∃ t : Fin grid5.N, _)

/-- Row `a` of the input block at point `t` is row `2000·(block number) + a` of the input array. -/
theorem rows_block (t : Fin cfg5.N) (a : Fin 2000) (k : Fin 128) :
    iblk5 V c 0 t (ix2 a k)
      = rowsIn V c (ix2 (⟨win5_2.index t (0 : Fin 2) * 2000 + a.val, by
          have := (index_facts t).2.2.2.2; have := a.isLt; omega⟩ : Fin 50000) k) := by
  obtain ⟨e0, e1, -, -, -⟩ := index_facts t
  show V c (Pipeline.arrRef spec5 0) (((cfg5.win 0).blk t).view.emb (ix2 a k)) = V c (Pipeline.arrRef spec5 0) _
  refine congrArg (V c (Pipeline.arrRef spec5 0)) ?_
  funext ax; apply Fin.ext
  match ax with
  | ⟨0, _⟩ => show win5_0.index t (0 : Fin 2) * 2000 + 1 * a.val = win5_2.index t (0 : Fin 2) * 2000 + a.val; omega
  | ⟨1, _⟩ => show win5_0.index t (1 : Fin 2) * 128 + 1 * k.val = k.val; omega

/-- The bias block at any point is the whole bias vector. -/
theorem bias_block (t : Fin cfg5.N) (b : Fin 128) : iblk5 V c 1 t (ix1 b) = biasIn V c (ix1 b) := by
  obtain ⟨-, -, e2, -, -⟩ := index_facts t
  show V c (Pipeline.arrRef spec5 1) (((cfg5.win 1).blk t).view.emb (ix1 b)) = V c (Pipeline.arrRef spec5 1) _
  refine congrArg (V c (Pipeline.arrRef spec5 1)) ?_
  funext ax; apply Fin.ext
  match ax with
  | ⟨0, _⟩ => show win5_1.index t (0 : Fin 1) * 128 + 1 * b.val = b.val; omega

/-- What point `t` writes back is the block of rows of the whole step. -/
theorem flushed_eq (t : Fin cfg5.N) :
    (dat5 V c).flushed 2 t = ((cfg5.win 2).blk t).view.read (Elt Ideal)
      (addRowRelu (rowsIn V c) (shapeCast ⟨2, ![1, 128]⟩ (biasIn V c) shapeCasts_S128_S1x128)) := by
  show (cfg5.win 2).cut (grid5.coords t) ((dat5 V c).after 2 t) = _
  rw [after5_2]
  unfold out5_2
  rw [View.canon_unit_zero zeros2]
  simp only [View.ld_unit_zero (S := S2000x128) zeros2, View.ld_unit_zero (S := S128) zeros1]
  funext j
  obtain ⟨a, b, rfl⟩ : ∃ (a : Fin 2000) (b : Fin 128), j = ix2 a b := ⟨j 0, j 1, eq_ix2 j⟩
  obtain ⟨-, -, -, e4, e5⟩ := index_facts t
  have hemb : ((cfg5.win 2).blk t).view.emb (ix2 a b)
      = ix2 (⟨win5_2.index t (0 : Fin 2) * 2000 + a.val, by have := a.isLt; omega⟩ : Fin 50000) b := by
    funext ax; apply Fin.ext
    match ax with
    | ⟨0, _⟩ => show win5_2.index t (0 : Fin 2) * 2000 + 1 * a.val = win5_2.index t (0 : Fin 2) * 2000 + a.val; omega
    | ⟨1, _⟩ => show win5_2.index t (1 : Fin 2) * 128 + 1 * b.val = b.val; omega
  show maximumf (addf (shapeCast ⟨2, ![2000, 128]⟩ (iblk5 V c 0 t) shapeCasts_S2000x128_S2000x128)
        (broadcastTo ⟨2, ![2000, 128]⟩ (shapeCast ⟨2, ![1, 128]⟩ (iblk5 V c 1 t) shapeCasts_S128_S1x128) broadcasts_S1x128_S2000x128))
      (broadcast ⟨2, ![2000, 128]⟩ (Scalar.ofBits (F := Ideal) .f32 0x00000000#32)) (ix2 a b)
    = addRowRelu (rowsIn V c) (shapeCast ⟨2, ![1, 128]⟩ (biasIn V c) shapeCasts_S128_S1x128) (((cfg5.win 2).blk t).view.emb (ix2 a b))
  rw [hemb]
  exact Cert.RowTiles.addRowRelu_rows (rowsIn V c) (biasIn V c) (iblk5 V c 0 t) (iblk5 V c 1 t)
    shapeCasts_S2000x128_S2000x128 shapeCasts_S128_S1x128 broadcasts_S1x128_S2000x128
    (win5_2.index t (0 : Fin 2) * 2000) (by omega)
    (fun a k => rows_block V c t a k) (fun b => bias_block V c t b) a b

/-- An index of the output array is in point `t`'s block iff each coordinate is in the block's range on its axis. -/
theorem mem_block (t : Fin cfg5.N) (i : S50000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v75).slice (win5_2.rect t)).set ↔ _
  rw [View.set_slice_whole, Rect.mem_set_unit]
  exact Iff.rfl

/-- The 25 blocks cover the output array: row `r` is in block `r / 2000`. -/
theorem covered (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, q0, q1⟩ := index_onto ⟨(i 0).val / 2000, by omega⟩
  refine ⟨t, flush5_2 t, ?_⟩
  rw [mem_block]
  intro a
  match a with
  | ⟨0, _⟩ => show win5_2.index t (0 : Fin 2) * 2000 ≤ (i 0).val ∧ (i 0).val < win5_2.index t (0 : Fin 2) * 2000 + 2000; simp only at q0; omega
  | ⟨1, _⟩ => show win5_2.index t (1 : Fin 2) * 128 ≤ (i 1).val ∧ (i 1).val < win5_2.index t (1 : Fin 2) * 128 + 128; omega

/-- THE OUTPUT ARRAY after the region: the bias added to every row of the input array, then the rectifier. -/
theorem biased (V : (c : Dev nD) → (b : Ref sig .tc) → Buf (Elt Ideal) ((c : Thread nD τ).loc b)) (c : Dev nD) :
    (dat5 V c).arrAt 2 cfg5.N = addRowRelu (rowsIn V c) (shapeCast ⟨2, ![1, 128]⟩ (biasIn V c) shapeCasts_S128_S1x128) :=
  (dat5 V c).arrAt_eq_of_cover 2 _ (fun t _ => flushed_eq V c t) (covered)

end Cert.KernelIdeal.BiasRelu5

end
-- ==== Proof.Head6.lean ====
/-
  Kernel region 6 (the last dense step, one grid point, whole arrays): what it leaves in its output array, as one
  function of the three arrays it reads.

  The body loads the 64 pooled rows, the 128 by 6 weight matrix and the bias of 6 entries, changes the float format of
  the two matrices (nothing, on the extended reals), multiplies them into a zero accumulator, adds the bias (cast to one
  row and laid down the 64 rows) and stores the 64 by 6 result. Every window's one block is its whole array, so the output
  array ends as the product of the pooled rows by the weights with the bias row added to every row.
-/
import proofs.«105373_j14980845928717_1_alg».proof.Proof.Gen.KernelIdeal.Frame
import proofs.«105373_j14980845928717_1_alg».proof.Proof.LibRowTiles
import Idealize.ShloMosaic.Lib.Pipeline.Value
import Idealize.ShloMosaic.Lib.ValueIdx

set_option maxRecDepth 16384

noncomputable section

namespace Cert.KernelIdeal.Head6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b)) (c : Dev nD)

/-- The pooled rows, the weights and the bias as the region finds them. -/
abbrev pooledIn : FVec Ideal ⟨2, ![64, 128]⟩ .f32 := V c (Pipeline.arrRef spec6 0)
abbrev weightIn : FVec Ideal ⟨2, ![128, 6]⟩ .f32 := V c (Pipeline.arrRef spec6 1)
abbrev biasIn : FVec Ideal ⟨1, ![6]⟩ .f32 := V c (Pipeline.arrRef spec6 2)

theorem zeros2 : (![0, 0] : Fin 2 → Nat) = fun _ => 0 := funext fun a => by fin_cases a <;> rfl
theorem zeros1 : (![0] : Fin 1 → Nat) = fun _ => 0 := funext fun a => by fin_cases a; rfl

/-- The printed index maps at the one grid point: every window is at block 0 on every axis. -/
theorem index_facts : ∀ t : Fin cfg6.N, win6_0.index t (0 : Fin 2) = 0 ∧ win6_0.index t (1 : Fin 2) = 0
    ∧ win6_1.index t (0 : Fin 2) = 0 ∧ win6_1.index t (1 : Fin 2) = 0 ∧ win6_2.index t (0 : Fin 1) = 0
    ∧ win6_3.index t (0 : Fin 2) = 0 ∧ win6_3.index t (1 : Fin 2) = 0 :=
  (by decide +kernel : ∀ t : Fin grid6.N, _)

/-- The pooled block is the whole pooled array. -/
theorem pooled_block (t : Fin cfg6.N) (a : Fin 64) (k : Fin 128) :
    iblk6 V c 0 t (ix2 a k) = pooledIn V c (ix2 (⟨0 + a.val, by have := a.isLt; omega⟩ : Fin 64) k) := by
  obtain ⟨e0, e1, -, -, -, -, -⟩ := index_facts t
  show V c (Pipeline.arrRef spec6 0) (((cfg6.win 0).blk t).view.emb (ix2 a k)) = V c (Pipeline.arrRef spec6 0) _
  refine congrArg (V c (Pipeline.arrRef spec6 0)) ?_
  funext ax; apply Fin.ext
  match ax with
  | ⟨0, _⟩ => show win6_0.index t (0 : Fin 2) * 64 + 1 * a.val = 0 + a.val; omega
  | ⟨1, _⟩ => show win6_0.index t (1 : Fin 2) * 128 + 1 * k.val = k.val; omega

/-- The weight block is the whole weight matrix. -/
theorem weight_block (t : Fin cfg6.N) (k : Fin 128) (b : Fin 6) : iblk6 V c 1 t (ix2 k b) = weightIn V c (ix2 k b) := by
  obtain ⟨-, -, e2, e3, -, -, -⟩ := index_facts t
  show V c (Pipeline.arrRef spec6 1) (((cfg6.win 1).blk t).view.emb (ix2 k b)) = V c (Pipeline.arrRef spec6 1) _
  refine congrArg (V c (Pipeline.arrRef spec6 1)) ?_
  funext ax; apply Fin.ext
  match ax with
  | ⟨0, _⟩ => show win6_1.index t (0 : Fin 2) * 128 + 1 * k.val = k.val; omega
  | ⟨1, _⟩ => show win6_1.index t (1 : Fin 2) * 6 + 1 * b.val = b.val; omega

/-- The bias block is the whole bias vector. -/
theorem bias_block (t : Fin cfg6.N) (b : Fin 6) : iblk6 V c 2 t (ix1 b) = biasIn V c (ix1 b) := by
  obtain ⟨-, -, -, -, e4, -, -⟩ := index_facts t
  show V c (Pipeline.arrRef spec6 2) (((cfg6.win 2).blk t).view.emb (ix1 b)) = V c (Pipeline.arrRef spec6 2) _
  refine congrArg (V c (Pipeline.arrRef spec6 2)) ?_
  funext ax; apply Fin.ext
  match ax with
  | ⟨0, _⟩ => show win6_2.index t (0 : Fin 1) * 6 + 1 * b.val = b.val; omega

/-- What the one point writes back is the whole dense step, read through its (whole) block. -/
theorem flushed_eq (t : Fin cfg6.N) :
    (dat6 V c).flushed 3 t = ((cfg6.win 3).blk t).view.read (Elt Ideal)
      (addRow (matProd (pooledIn V c) (weightIn V c)) (shapeCast ⟨2, ![1, 6]⟩ (biasIn V c) shapeCasts_S6_S1x6)) := by
  show (cfg6.win 3).cut (grid6.coords t) ((dat6 V c).after 3 t) = _
  rw [after6_3]
  unfold out6_3
  rw [View.canon_unit_zero zeros2]
  simp only [View.ld_unit_zero (S := S64x128) zeros2, View.ld_unit_zero (S := S128x6) zeros2, View.ld_unit_zero (S := S6) zeros1]
  funext j
  obtain ⟨a, b, rfl⟩ : ∃ (a : Fin 64) (b : Fin 6), j = ix2 a b := ⟨j 0, j 1, eq_ix2 j⟩
  obtain ⟨-, -, -, -, -, e5, e6⟩ := index_facts t
  have hemb : ((cfg6.win 3).blk t).view.emb (ix2 a b) = ix2 (⟨0 + a.val, by have := a.isLt; omega⟩ : Fin 64) b := by
    funext ax; apply Fin.ext
    match ax with
    | ⟨0, _⟩ => show win6_3.index t (0 : Fin 2) * 64 + 1 * a.val = 0 + a.val; omega
    | ⟨1, _⟩ => show win6_3.index t (1 : Fin 2) * 6 + 1 * b.val = b.val; omega
  show addf (matmul (φ₁ := .bf16) (φ₂ := .bf16) (⟨[1], [0], [0], [1], [], [], dot_S64x128_S128x6_S64x6_1_0_0_1_n_n_wf⟩ : DotDims ⟨2, ![64, 128]⟩ ⟨2, ![128, 6]⟩ ⟨2, ![64, 6]⟩) none
        (shapeCast ⟨2, ![64, 128]⟩ (iblk6 V c 0 t) shapeCasts_S64x128_S64x128) (iblk6 V c 1 t) (constant (F := Ideal) ⟨2, ![64, 6]⟩ .f32 0x00000000#32))
      (broadcastTo ⟨2, ![64, 6]⟩ (shapeCast ⟨2, ![1, 6]⟩ (iblk6 V c 2 t) shapeCasts_S6_S1x6) broadcasts_S1x6_S64x6) (ix2 a b)
    = addRow (matProd (pooledIn V c) (weightIn V c)) (shapeCast ⟨2, ![1, 6]⟩ (biasIn V c) shapeCasts_S6_S1x6) (((cfg6.win 3).blk t).view.emb (ix2 a b))
  rw [hemb, shapeCast_self]
  exact Cert.RowTiles.matmul_addRow_rows dot_S64x128_S128x6_S64x6_1_0_0_1_n_n_wf none (pooledIn V c) (weightIn V c) (biasIn V c)
    (iblk6 V c 0 t) (iblk6 V c 1 t) (iblk6 V c 2 t) shapeCasts_S6_S1x6 broadcasts_S1x6_S64x6 0 (by omega)
    (fun a k => pooled_block V c t a k) (fun k b => weight_block V c t k b) (fun b => bias_block V c t b) a b

/-- An index of the output array is in the point's block iff each coordinate is in the block's range on its axis. -/
theorem mem_block (t : Fin cfg6.N) (i : S64x6.Idx) :
    i ∈ ((cfg6.win 3).blk t).view.set ↔ ∀ a : Fin 2, win6_3.index t a * S64x6.size a ≤ (i a).val ∧ (i a).val < win6_3.index t a * S64x6.size a + S64x6.size a := by
  show i ∈ ((View.whole main_v88).slice (win6_3.rect t)).set ↔ _
  rw [View.set_slice_whole, Rect.mem_set_unit]
  exact Iff.rfl

/-- The one block covers the output array. -/
theorem covered (i : S64x6.Idx) :
    ∃ t : Fin cfg6.N, (cfg6.win 3).flush t = true ∧ i ∈ ((cfg6.win 3).blk t).view.set := by
  have hi0 : (i 0).val < 64 := (i 0).isLt
  have hi1 : (i 1).val < 6 := (i 1).isLt
  obtain ⟨-, -, -, -, -, e5, e6⟩ := index_facts t6_0
  refine ⟨t6_0, flush6_3 t6_0, ?_⟩
  rw [mem_block]
  intro a
  match a with
  | ⟨0, _⟩ => show win6_3.index t6_0 (0 : Fin 2) * 64 ≤ (i 0).val ∧ (i 0).val < win6_3.index t6_0 (0 : Fin 2) * 64 + 64; omega
  | ⟨1, _⟩ => show win6_3.index t6_0 (1 : Fin 2) * 6 ≤ (i 1).val ∧ (i 1).val < win6_3.index t6_0 (1 : Fin 2) * 6 + 6; omega

/-- THE OUTPUT ARRAY after the region: the pooled rows times the weights, plus the bias on every row. -/
theorem scores (V : (c : Dev nD) → (b : Ref sig .tc) → Buf (Elt Ideal) ((c : Thread nD τ).loc b)) (c : Dev nD) :
    (dat6 V c).arrAt 3 cfg6.N
      = addRow (matProd (pooledIn V c) (weightIn V c)) (shapeCast ⟨2, ![1, 6]⟩ (biasIn V c) shapeCasts_S6_S1x6) :=
  (dat6 V c).arrAt_eq_of_cover 3 _ (fun t _ => flushed_eq V c t) (covered)

end Cert.KernelIdeal.Head6

end
-- ==== Proof.CarryArgs.lean ====
/-
  The argument arrays along the idealized kernel's run. The run's buffer contents are a fold over fourteen boundaries:
  a stretch of host operations changes only the buffers its operations write, a kernel region only its output array. No
  stretch and no region writes an argument array, so at the boundary where a region or a stretch reads an argument, the
  argument still holds its launch contents: one step per boundary, chained.
-/
import proofs.«105373_j14980845928717_1_alg».proof.Proof.Gen.KernelIdeal.Frame

set_option maxRecDepth 16384

noncomputable section

namespace Cert.KernelIdeal.CarryArgs

open Idealize.ShloMosaic Idealize.ShloMosaic.TcCoe Idealize.SL.Sem
open Cert.KernelIdeal Cert.KernelIdeal.Gen

/-- A stretch of host operations leaves a buffer as it was when none of its operations writes it: each operation's
    written buffer is compared with the buffer by name. -/
macro "host_keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg) (c : Dev nD)

/-! ### `main_arg0` -/

theorem keep_main_arg0_1 : W1 m ρ c (Proc.devRef .tc main_arg0) = W0 m ρ c (Proc.devRef .tc main_arg0) := by
  host_keeps hostOps0
theorem keep_main_arg0_2 : W2 m ρ c (Proc.devRef .tc main_arg0) = W1 m ρ c (Proc.devRef .tc main_arg0) := by
  host_keeps hostOps0_1
theorem keep_main_arg0_3 : W3 m ρ c (Proc.devRef .tc main_arg0) = W2 m ρ c (Proc.devRef .tc main_arg0) := by
  host_keeps hostOps0_2

/-- At boundary 3 the argument still holds its launch contents. -/
theorem at3_main_arg0 : W3 m ρ c (Proc.devRef .tc main_arg0) = m ((c : Thread nD τ).loc main_arg0) :=
  (keep_main_arg0_3 m ρ c).trans ((keep_main_arg0_2 m ρ c).trans ((keep_main_arg0_1 m ρ c).trans (rfl)))

/-! ### `main_arg3` -/

theorem keep_main_arg3_1 : W1 m ρ c (Proc.devRef .tc main_arg3) = W0 m ρ c (Proc.devRef .tc main_arg3) := by
  host_keeps hostOps0
theorem keep_main_arg3_2 : W2 m ρ c (Proc.devRef .tc main_arg3) = W1 m ρ c (Proc.devRef .tc main_arg3) := by
  host_keeps hostOps0_1
theorem keep_main_arg3_3 : W3 m ρ c (Proc.devRef .tc main_arg3) = W2 m ρ c (Proc.devRef .tc main_arg3) := by
  host_keeps hostOps0_2

/-- At boundary 3 the argument still holds its launch contents. -/
theorem at3_main_arg3 : W3 m ρ c (Proc.devRef .tc main_arg3) = m ((c : Thread nD τ).loc main_arg3) :=
  (keep_main_arg3_3 m ρ c).trans ((keep_main_arg3_2 m ρ c).trans ((keep_main_arg3_1 m ρ c).trans (rfl)))

/-! ### `main_arg4` -/

theorem keep_main_arg4_1 : W1 m ρ c (Proc.devRef .tc main_arg4) = W0 m ρ c (Proc.devRef .tc main_arg4) := by
  host_keeps hostOps0
theorem keep_main_arg4_2 : W2 m ρ c (Proc.devRef .tc main_arg4) = W1 m ρ c (Proc.devRef .tc main_arg4) := by
  host_keeps hostOps0_1
theorem keep_main_arg4_3 : W3 m ρ c (Proc.devRef .tc main_arg4) = W2 m ρ c (Proc.devRef .tc main_arg4) := by
  host_keeps hostOps0_2
theorem keep_main_arg4_4 : W4 m ρ c (Proc.devRef .tc main_arg4) = W3 m ρ c (Proc.devRef .tc main_arg4) :=
  W4_of_ne m ρ c main_arg4 (by decide)
theorem keep_main_arg4_5 : W5 m ρ c (Proc.devRef .tc main_arg4) = W4 m ρ c (Proc.devRef .tc main_arg4) := by
  host_keeps hostOps1

/-- At boundary 5 the argument still holds its launch contents. -/
theorem at5_main_arg4 : W5 m ρ c (Proc.devRef .tc main_arg4) = m ((c : Thread nD τ).loc main_arg4) :=
  (keep_main_arg4_5 m ρ c).trans ((keep_main_arg4_4 m ρ c).trans ((keep_main_arg4_3 m ρ c).trans ((keep_main_arg4_2 m ρ c).trans ((keep_main_arg4_1 m ρ c).trans (rfl)))))

/-! ### `main_arg5` -/

theorem keep_main_arg5_1 : W1 m ρ c (Proc.devRef .tc main_arg5) = W0 m ρ c (Proc.devRef .tc main_arg5) := by
  host_keeps hostOps0
theorem keep_main_arg5_2 : W2 m ρ c (Proc.devRef .tc main_arg5) = W1 m ρ c (Proc.devRef .tc main_arg5) := by
  host_keeps hostOps0_1
theorem keep_main_arg5_3 : W3 m ρ c (Proc.devRef .tc main_arg5) = W2 m ρ c (Proc.devRef .tc main_arg5) := by
  host_keeps hostOps0_2
theorem keep_main_arg5_4 : W4 m ρ c (Proc.devRef .tc main_arg5) = W3 m ρ c (Proc.devRef .tc main_arg5) :=
  W4_of_ne m ρ c main_arg5 (by decide)
theorem keep_main_arg5_5 : W5 m ρ c (Proc.devRef .tc main_arg5) = W4 m ρ c (Proc.devRef .tc main_arg5) := by
  host_keeps hostOps1
theorem keep_main_arg5_6 : W6 m ρ c (Proc.devRef .tc main_arg5) = W5 m ρ c (Proc.devRef .tc main_arg5) :=
  W6_of_ne m ρ c main_arg5 (by decide)

/-- At boundary 6 the argument still holds its launch contents. -/
theorem at6_main_arg5 : W6 m ρ c (Proc.devRef .tc main_arg5) = m ((c : Thread nD τ).loc main_arg5) :=
  (keep_main_arg5_6 m ρ c).trans ((keep_main_arg5_5 m ρ c).trans ((keep_main_arg5_4 m ρ c).trans ((keep_main_arg5_3 m ρ c).trans ((keep_main_arg5_2 m ρ c).trans ((keep_main_arg5_1 m ρ c).trans (rfl))))))

/-! ### `main_arg6` -/

theorem keep_main_arg6_1 : W1 m ρ c (Proc.devRef .tc main_arg6) = W0 m ρ c (Proc.devRef .tc main_arg6) := by
  host_keeps hostOps0
theorem keep_main_arg6_2 : W2 m ρ c (Proc.devRef .tc main_arg6) = W1 m ρ c (Proc.devRef .tc main_arg6) := by
  host_keeps hostOps0_1
theorem keep_main_arg6_3 : W3 m ρ c (Proc.devRef .tc main_arg6) = W2 m ρ c (Proc.devRef .tc main_arg6) := by
  host_keeps hostOps0_2
theorem keep_main_arg6_4 : W4 m ρ c (Proc.devRef .tc main_arg6) = W3 m ρ c (Proc.devRef .tc main_arg6) :=
  W4_of_ne m ρ c main_arg6 (by decide)
theorem keep_main_arg6_5 : W5 m ρ c (Proc.devRef .tc main_arg6) = W4 m ρ c (Proc.devRef .tc main_arg6) := by
  host_keeps hostOps1
theorem keep_main_arg6_6 : W6 m ρ c (Proc.devRef .tc main_arg6) = W5 m ρ c (Proc.devRef .tc main_arg6) :=
  W6_of_ne m ρ c main_arg6 (by decide)
theorem keep_main_arg6_7 : W7 m ρ c (Proc.devRef .tc main_arg6) = W6 m ρ c (Proc.devRef .tc main_arg6) :=
  W7_of_ne m ρ c main_arg6 (by decide)
theorem keep_main_arg6_8 : W8 m ρ c (Proc.devRef .tc main_arg6) = W7 m ρ c (Proc.devRef .tc main_arg6) := by
  host_keeps hostOps3

/-- At boundary 8 the argument still holds its launch contents. -/
theorem at8_main_arg6 : W8 m ρ c (Proc.devRef .tc main_arg6) = m ((c : Thread nD τ).loc main_arg6) :=
  (keep_main_arg6_8 m ρ c).trans ((keep_main_arg6_7 m ρ c).trans ((keep_main_arg6_6 m ρ c).trans ((keep_main_arg6_5 m ρ c).trans ((keep_main_arg6_4 m ρ c).trans ((keep_main_arg6_3 m ρ c).trans ((keep_main_arg6_2 m ρ c).trans ((keep_main_arg6_1 m ρ c).trans (rfl))))))))

/-! ### `main_arg7` -/

theorem keep_main_arg7_1 : W1 m ρ c (Proc.devRef .tc main_arg7) = W0 m ρ c (Proc.devRef .tc main_arg7) := by
  host_keeps hostOps0
theorem keep_main_arg7_2 : W2 m ρ c (Proc.devRef .tc main_arg7) = W1 m ρ c (Proc.devRef .tc main_arg7) := by
  host_keeps hostOps0_1
theorem keep_main_arg7_3 : W3 m ρ c (Proc.devRef .tc main_arg7) = W2 m ρ c (Proc.devRef .tc main_arg7) := by
  host_keeps hostOps0_2
theorem keep_main_arg7_4 : W4 m ρ c (Proc.devRef .tc main_arg7) = W3 m ρ c (Proc.devRef .tc main_arg7) :=
  W4_of_ne m ρ c main_arg7 (by decide)
theorem keep_main_arg7_5 : W5 m ρ c (Proc.devRef .tc main_arg7) = W4 m ρ c (Proc.devRef .tc main_arg7) := by
  host_keeps hostOps1
theorem keep_main_arg7_6 : W6 m ρ c (Proc.devRef .tc main_arg7) = W5 m ρ c (Proc.devRef .tc main_arg7) :=
  W6_of_ne m ρ c main_arg7 (by decide)
theorem keep_main_arg7_7 : W7 m ρ c (Proc.devRef .tc main_arg7) = W6 m ρ c (Proc.devRef .tc main_arg7) :=
  W7_of_ne m ρ c main_arg7 (by decide)
theorem keep_main_arg7_8 : W8 m ρ c (Proc.devRef .tc main_arg7) = W7 m ρ c (Proc.devRef .tc main_arg7) := by
  host_keeps hostOps3
theorem keep_main_arg7_9 : W9 m ρ c (Proc.devRef .tc main_arg7) = W8 m ρ c (Proc.devRef .tc main_arg7) :=
  W9_of_ne m ρ c main_arg7 (by decide)

/-- At boundary 9 the argument still holds its launch contents. -/
theorem at9_main_arg7 : W9 m ρ c (Proc.devRef .tc main_arg7) = m ((c : Thread nD τ).loc main_arg7) :=
  (keep_main_arg7_9 m ρ c).trans ((keep_main_arg7_8 m ρ c).trans ((keep_main_arg7_7 m ρ c).trans ((keep_main_arg7_6 m ρ c).trans ((keep_main_arg7_5 m ρ c).trans ((keep_main_arg7_4 m ρ c).trans ((keep_main_arg7_3 m ρ c).trans ((keep_main_arg7_2 m ρ c).trans ((keep_main_arg7_1 m ρ c).trans (rfl)))))))))

/-! ### `main_arg8` -/

theorem keep_main_arg8_1 : W1 m ρ c (Proc.devRef .tc main_arg8) = W0 m ρ c (Proc.devRef .tc main_arg8) := by
  host_keeps hostOps0
theorem keep_main_arg8_2 : W2 m ρ c (Proc.devRef .tc main_arg8) = W1 m ρ c (Proc.devRef .tc main_arg8) := by
  host_keeps hostOps0_1
theorem keep_main_arg8_3 : W3 m ρ c (Proc.devRef .tc main_arg8) = W2 m ρ c (Proc.devRef .tc main_arg8) := by
  host_keeps hostOps0_2
theorem keep_main_arg8_4 : W4 m ρ c (Proc.devRef .tc main_arg8) = W3 m ρ c (Proc.devRef .tc main_arg8) :=
  W4_of_ne m ρ c main_arg8 (by decide)
theorem keep_main_arg8_5 : W5 m ρ c (Proc.devRef .tc main_arg8) = W4 m ρ c (Proc.devRef .tc main_arg8) := by
  host_keeps hostOps1
theorem keep_main_arg8_6 : W6 m ρ c (Proc.devRef .tc main_arg8) = W5 m ρ c (Proc.devRef .tc main_arg8) :=
  W6_of_ne m ρ c main_arg8 (by decide)
theorem keep_main_arg8_7 : W7 m ρ c (Proc.devRef .tc main_arg8) = W6 m ρ c (Proc.devRef .tc main_arg8) :=
  W7_of_ne m ρ c main_arg8 (by decide)
theorem keep_main_arg8_8 : W8 m ρ c (Proc.devRef .tc main_arg8) = W7 m ρ c (Proc.devRef .tc main_arg8) := by
  host_keeps hostOps3
theorem keep_main_arg8_9 : W9 m ρ c (Proc.devRef .tc main_arg8) = W8 m ρ c (Proc.devRef .tc main_arg8) :=
  W9_of_ne m ρ c main_arg8 (by decide)
theorem keep_main_arg8_10 : W10 m ρ c (Proc.devRef .tc main_arg8) = W9 m ρ c (Proc.devRef .tc main_arg8) :=
  W10_of_ne m ρ c main_arg8 (by decide)
theorem keep_main_arg8_11 : W11 m ρ c (Proc.devRef .tc main_arg8) = W10 m ρ c (Proc.devRef .tc main_arg8) := by
  host_keeps hostOps5

/-- At boundary 11 the argument still holds its launch contents. -/
theorem at11_main_arg8 : W11 m ρ c (Proc.devRef .tc main_arg8) = m ((c : Thread nD τ).loc main_arg8) :=
  (keep_main_arg8_11 m ρ c).trans ((keep_main_arg8_10 m ρ c).trans ((keep_main_arg8_9 m ρ c).trans ((keep_main_arg8_8 m ρ c).trans ((keep_main_arg8_7 m ρ c).trans ((keep_main_arg8_6 m ρ c).trans ((keep_main_arg8_5 m ρ c).trans ((keep_main_arg8_4 m ρ c).trans ((keep_main_arg8_3 m ρ c).trans ((keep_main_arg8_2 m ρ c).trans ((keep_main_arg8_1 m ρ c).trans (rfl)))))))))))

/-! ### `main_arg2` -/

theorem keep_main_arg2_1 : W1 m ρ c (Proc.devRef .tc main_arg2) = W0 m ρ c (Proc.devRef .tc main_arg2) := by
  host_keeps hostOps0
theorem keep_main_arg2_2 : W2 m ρ c (Proc.devRef .tc main_arg2) = W1 m ρ c (Proc.devRef .tc main_arg2) := by
  host_keeps hostOps0_1
theorem keep_main_arg2_3 : W3 m ρ c (Proc.devRef .tc main_arg2) = W2 m ρ c (Proc.devRef .tc main_arg2) := by
  host_keeps hostOps0_2
theorem keep_main_arg2_4 : W4 m ρ c (Proc.devRef .tc main_arg2) = W3 m ρ c (Proc.devRef .tc main_arg2) :=
  W4_of_ne m ρ c main_arg2 (by decide)
theorem keep_main_arg2_5 : W5 m ρ c (Proc.devRef .tc main_arg2) = W4 m ρ c (Proc.devRef .tc main_arg2) := by
  host_keeps hostOps1
theorem keep_main_arg2_6 : W6 m ρ c (Proc.devRef .tc main_arg2) = W5 m ρ c (Proc.devRef .tc main_arg2) :=
  W6_of_ne m ρ c main_arg2 (by decide)
theorem keep_main_arg2_7 : W7 m ρ c (Proc.devRef .tc main_arg2) = W6 m ρ c (Proc.devRef .tc main_arg2) :=
  W7_of_ne m ρ c main_arg2 (by decide)
theorem keep_main_arg2_8 : W8 m ρ c (Proc.devRef .tc main_arg2) = W7 m ρ c (Proc.devRef .tc main_arg2) := by
  host_keeps hostOps3
theorem keep_main_arg2_9 : W9 m ρ c (Proc.devRef .tc main_arg2) = W8 m ρ c (Proc.devRef .tc main_arg2) :=
  W9_of_ne m ρ c main_arg2 (by decide)
theorem keep_main_arg2_10 : W10 m ρ c (Proc.devRef .tc main_arg2) = W9 m ρ c (Proc.devRef .tc main_arg2) :=
  W10_of_ne m ρ c main_arg2 (by decide)
theorem keep_main_arg2_11 : W11 m ρ c (Proc.devRef .tc main_arg2) = W10 m ρ c (Proc.devRef .tc main_arg2) := by
  host_keeps hostOps5
theorem keep_main_arg2_12 : W12 m ρ c (Proc.devRef .tc main_arg2) = W11 m ρ c (Proc.devRef .tc main_arg2) :=
  W12_of_ne m ρ c main_arg2 (by decide)

/-- At boundary 12 the argument still holds its launch contents. -/
theorem at12_main_arg2 : W12 m ρ c (Proc.devRef .tc main_arg2) = m ((c : Thread nD τ).loc main_arg2) :=
  (keep_main_arg2_12 m ρ c).trans ((keep_main_arg2_11 m ρ c).trans ((keep_main_arg2_10 m ρ c).trans ((keep_main_arg2_9 m ρ c).trans ((keep_main_arg2_8 m ρ c).trans ((keep_main_arg2_7 m ρ c).trans ((keep_main_arg2_6 m ρ c).trans ((keep_main_arg2_5 m ρ c).trans ((keep_main_arg2_4 m ρ c).trans ((keep_main_arg2_3 m ρ c).trans ((keep_main_arg2_2 m ρ c).trans ((keep_main_arg2_1 m ρ c).trans (rfl))))))))))))

/-! ### `main_arg9` -/

theorem keep_main_arg9_1 : W1 m ρ c (Proc.devRef .tc main_arg9) = W0 m ρ c (Proc.devRef .tc main_arg9) := by
  host_keeps hostOps0
theorem keep_main_arg9_2 : W2 m ρ c (Proc.devRef .tc main_arg9) = W1 m ρ c (Proc.devRef .tc main_arg9) := by
  host_keeps hostOps0_1
theorem keep_main_arg9_3 : W3 m ρ c (Proc.devRef .tc main_arg9) = W2 m ρ c (Proc.devRef .tc main_arg9) := by
  host_keeps hostOps0_2
theorem keep_main_arg9_4 : W4 m ρ c (Proc.devRef .tc main_arg9) = W3 m ρ c (Proc.devRef .tc main_arg9) :=
  W4_of_ne m ρ c main_arg9 (by decide)
theorem keep_main_arg9_5 : W5 m ρ c (Proc.devRef .tc main_arg9) = W4 m ρ c (Proc.devRef .tc main_arg9) := by
  host_keeps hostOps1
theorem keep_main_arg9_6 : W6 m ρ c (Proc.devRef .tc main_arg9) = W5 m ρ c (Proc.devRef .tc main_arg9) :=
  W6_of_ne m ρ c main_arg9 (by decide)
theorem keep_main_arg9_7 : W7 m ρ c (Proc.devRef .tc main_arg9) = W6 m ρ c (Proc.devRef .tc main_arg9) :=
  W7_of_ne m ρ c main_arg9 (by decide)
theorem keep_main_arg9_8 : W8 m ρ c (Proc.devRef .tc main_arg9) = W7 m ρ c (Proc.devRef .tc main_arg9) := by
  host_keeps hostOps3
theorem keep_main_arg9_9 : W9 m ρ c (Proc.devRef .tc main_arg9) = W8 m ρ c (Proc.devRef .tc main_arg9) :=
  W9_of_ne m ρ c main_arg9 (by decide)
theorem keep_main_arg9_10 : W10 m ρ c (Proc.devRef .tc main_arg9) = W9 m ρ c (Proc.devRef .tc main_arg9) :=
  W10_of_ne m ρ c main_arg9 (by decide)
theorem keep_main_arg9_11 : W11 m ρ c (Proc.devRef .tc main_arg9) = W10 m ρ c (Proc.devRef .tc main_arg9) := by
  host_keeps hostOps5
theorem keep_main_arg9_12 : W12 m ρ c (Proc.devRef .tc main_arg9) = W11 m ρ c (Proc.devRef .tc main_arg9) :=
  W12_of_ne m ρ c main_arg9 (by decide)
theorem keep_main_arg9_13 : W13 m ρ c (Proc.devRef .tc main_arg9) = W12 m ρ c (Proc.devRef .tc main_arg9) := by
  host_keeps hostOps6

/-- At boundary 13 the argument still holds its launch contents. -/
theorem at13_main_arg9 : W13 m ρ c (Proc.devRef .tc main_arg9) = m ((c : Thread nD τ).loc main_arg9) :=
  (keep_main_arg9_13 m ρ c).trans ((keep_main_arg9_12 m ρ c).trans ((keep_main_arg9_11 m ρ c).trans ((keep_main_arg9_10 m ρ c).trans ((keep_main_arg9_9 m ρ c).trans ((keep_main_arg9_8 m ρ c).trans ((keep_main_arg9_7 m ρ c).trans ((keep_main_arg9_6 m ρ c).trans ((keep_main_arg9_5 m ρ c).trans ((keep_main_arg9_4 m ρ c).trans ((keep_main_arg9_3 m ρ c).trans ((keep_main_arg9_2 m ρ c).trans ((keep_main_arg9_1 m ρ c).trans (rfl)))))))))))))

/-! ### `main_arg10` -/

theorem keep_main_arg10_1 : W1 m ρ c (Proc.devRef .tc main_arg10) = W0 m ρ c (Proc.devRef .tc main_arg10) := by
  host_keeps hostOps0
theorem keep_main_arg10_2 : W2 m ρ c (Proc.devRef .tc main_arg10) = W1 m ρ c (Proc.devRef .tc main_arg10) := by
  host_keeps hostOps0_1
theorem keep_main_arg10_3 : W3 m ρ c (Proc.devRef .tc main_arg10) = W2 m ρ c (Proc.devRef .tc main_arg10) := by
  host_keeps hostOps0_2
theorem keep_main_arg10_4 : W4 m ρ c (Proc.devRef .tc main_arg10) = W3 m ρ c (Proc.devRef .tc main_arg10) :=
  W4_of_ne m ρ c main_arg10 (by decide)
theorem keep_main_arg10_5 : W5 m ρ c (Proc.devRef .tc main_arg10) = W4 m ρ c (Proc.devRef .tc main_arg10) := by
  host_keeps hostOps1
theorem keep_main_arg10_6 : W6 m ρ c (Proc.devRef .tc main_arg10) = W5 m ρ c (Proc.devRef .tc main_arg10) :=
  W6_of_ne m ρ c main_arg10 (by decide)
theorem keep_main_arg10_7 : W7 m ρ c (Proc.devRef .tc main_arg10) = W6 m ρ c (Proc.devRef .tc main_arg10) :=
  W7_of_ne m ρ c main_arg10 (by decide)
theorem keep_main_arg10_8 : W8 m ρ c (Proc.devRef .tc main_arg10) = W7 m ρ c (Proc.devRef .tc main_arg10) := by
  host_keeps hostOps3
theorem keep_main_arg10_9 : W9 m ρ c (Proc.devRef .tc main_arg10) = W8 m ρ c (Proc.devRef .tc main_arg10) :=
  W9_of_ne m ρ c main_arg10 (by decide)
theorem keep_main_arg10_10 : W10 m ρ c (Proc.devRef .tc main_arg10) = W9 m ρ c (Proc.devRef .tc main_arg10) :=
  W10_of_ne m ρ c main_arg10 (by decide)
theorem keep_main_arg10_11 : W11 m ρ c (Proc.devRef .tc main_arg10) = W10 m ρ c (Proc.devRef .tc main_arg10) := by
  host_keeps hostOps5
theorem keep_main_arg10_12 : W12 m ρ c (Proc.devRef .tc main_arg10) = W11 m ρ c (Proc.devRef .tc main_arg10) :=
  W12_of_ne m ρ c main_arg10 (by decide)
theorem keep_main_arg10_13 : W13 m ρ c (Proc.devRef .tc main_arg10) = W12 m ρ c (Proc.devRef .tc main_arg10) := by
  host_keeps hostOps6

/-- At boundary 13 the argument still holds its launch contents. -/
theorem at13_main_arg10 : W13 m ρ c (Proc.devRef .tc main_arg10) = m ((c : Thread nD τ).loc main_arg10) :=
  (keep_main_arg10_13 m ρ c).trans ((keep_main_arg10_12 m ρ c).trans ((keep_main_arg10_11 m ρ c).trans ((keep_main_arg10_10 m ρ c).trans ((keep_main_arg10_9 m ρ c).trans ((keep_main_arg10_8 m ρ c).trans ((keep_main_arg10_7 m ρ c).trans ((keep_main_arg10_6 m ρ c).trans ((keep_main_arg10_5 m ρ c).trans ((keep_main_arg10_4 m ρ c).trans ((keep_main_arg10_3 m ρ c).trans ((keep_main_arg10_2 m ρ c).trans ((keep_main_arg10_1 m ρ c).trans (rfl)))))))))))))

end Cert.KernelIdeal.CarryArgs

end
-- ==== Proof.CarryEdges.lean ====
/-
  The three arrays the graph structure is kept in — the sources, the targets and the edge coefficients, computed by the
  host operations before the first region — along the idealized kernel's run. The three aggregation stretches read them
  at boundaries 4, 7 and 10; between boundary 3, where they are complete, and those boundaries the run crosses only
  regions (which change their own output array) and stretches whose operations write other buffers.
-/
import proofs.«105373_j14980845928717_1_alg».proof.Proof.Gen.KernelIdeal.Frame

set_option maxRecDepth 16384

noncomputable section

namespace Cert.KernelIdeal.CarryEdges

open Idealize.ShloMosaic Idealize.ShloMosaic.TcCoe Idealize.SL.Sem
open Cert.KernelIdeal Cert.KernelIdeal.Gen

/-- A stretch of host operations leaves a buffer as it was when none of its operations writes it: each operation's
    written buffer is compared with the buffer by name. -/
macro "host_keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg) (c : Dev nD)

/-! ### `main_v3` -/

theorem keep_main_v3_4 : W4 m ρ c (Proc.devRef .tc main_v3) = W3 m ρ c (Proc.devRef .tc main_v3) :=
  W4_of_ne m ρ c main_v3 (by decide)
theorem keep_main_v3_5 : W5 m ρ c (Proc.devRef .tc main_v3) = W4 m ρ c (Proc.devRef .tc main_v3) := by
  host_keeps hostOps1
theorem keep_main_v3_6 : W6 m ρ c (Proc.devRef .tc main_v3) = W5 m ρ c (Proc.devRef .tc main_v3) :=
  W6_of_ne m ρ c main_v3 (by decide)
theorem keep_main_v3_7 : W7 m ρ c (Proc.devRef .tc main_v3) = W6 m ρ c (Proc.devRef .tc main_v3) :=
  W7_of_ne m ρ c main_v3 (by decide)
theorem keep_main_v3_8 : W8 m ρ c (Proc.devRef .tc main_v3) = W7 m ρ c (Proc.devRef .tc main_v3) := by
  host_keeps hostOps3
theorem keep_main_v3_9 : W9 m ρ c (Proc.devRef .tc main_v3) = W8 m ρ c (Proc.devRef .tc main_v3) :=
  W9_of_ne m ρ c main_v3 (by decide)
theorem keep_main_v3_10 : W10 m ρ c (Proc.devRef .tc main_v3) = W9 m ρ c (Proc.devRef .tc main_v3) :=
  W10_of_ne m ρ c main_v3 (by decide)

/-- From boundary 3, where it is computed, to boundary 4, where the next stretch reads it. -/
theorem at4_main_v3 : W4 m ρ c (Proc.devRef .tc main_v3) = W3 m ρ c (Proc.devRef .tc main_v3) :=
  (keep_main_v3_4 m ρ c).trans (rfl)

/-- From boundary 3, where it is computed, to boundary 7, where the next stretch reads it. -/
theorem at7_main_v3 : W7 m ρ c (Proc.devRef .tc main_v3) = W3 m ρ c (Proc.devRef .tc main_v3) :=
  (keep_main_v3_7 m ρ c).trans ((keep_main_v3_6 m ρ c).trans ((keep_main_v3_5 m ρ c).trans ((keep_main_v3_4 m ρ c).trans (rfl))))

/-- From boundary 3, where it is computed, to boundary 10, where the next stretch reads it. -/
theorem at10_main_v3 : W10 m ρ c (Proc.devRef .tc main_v3) = W3 m ρ c (Proc.devRef .tc main_v3) :=
  (keep_main_v3_10 m ρ c).trans ((keep_main_v3_9 m ρ c).trans ((keep_main_v3_8 m ρ c).trans ((keep_main_v3_7 m ρ c).trans ((keep_main_v3_6 m ρ c).trans ((keep_main_v3_5 m ρ c).trans ((keep_main_v3_4 m ρ c).trans (rfl)))))))

/-! ### `main_v6` -/

theorem keep_main_v6_4 : W4 m ρ c (Proc.devRef .tc main_v6) = W3 m ρ c (Proc.devRef .tc main_v6) :=
  W4_of_ne m ρ c main_v6 (by decide)
theorem keep_main_v6_5 : W5 m ρ c (Proc.devRef .tc main_v6) = W4 m ρ c (Proc.devRef .tc main_v6) := by
  host_keeps hostOps1
theorem keep_main_v6_6 : W6 m ρ c (Proc.devRef .tc main_v6) = W5 m ρ c (Proc.devRef .tc main_v6) :=
  W6_of_ne m ρ c main_v6 (by decide)
theorem keep_main_v6_7 : W7 m ρ c (Proc.devRef .tc main_v6) = W6 m ρ c (Proc.devRef .tc main_v6) :=
  W7_of_ne m ρ c main_v6 (by decide)
theorem keep_main_v6_8 : W8 m ρ c (Proc.devRef .tc main_v6) = W7 m ρ c (Proc.devRef .tc main_v6) := by
  host_keeps hostOps3
theorem keep_main_v6_9 : W9 m ρ c (Proc.devRef .tc main_v6) = W8 m ρ c (Proc.devRef .tc main_v6) :=
  W9_of_ne m ρ c main_v6 (by decide)
theorem keep_main_v6_10 : W10 m ρ c (Proc.devRef .tc main_v6) = W9 m ρ c (Proc.devRef .tc main_v6) :=
  W10_of_ne m ρ c main_v6 (by decide)

/-- From boundary 3, where it is computed, to boundary 4, where the next stretch reads it. -/
theorem at4_main_v6 : W4 m ρ c (Proc.devRef .tc main_v6) = W3 m ρ c (Proc.devRef .tc main_v6) :=
  (keep_main_v6_4 m ρ c).trans (rfl)

/-- From boundary 3, where it is computed, to boundary 7, where the next stretch reads it. -/
theorem at7_main_v6 : W7 m ρ c (Proc.devRef .tc main_v6) = W3 m ρ c (Proc.devRef .tc main_v6) :=
  (keep_main_v6_7 m ρ c).trans ((keep_main_v6_6 m ρ c).trans ((keep_main_v6_5 m ρ c).trans ((keep_main_v6_4 m ρ c).trans (rfl))))

/-- From boundary 3, where it is computed, to boundary 10, where the next stretch reads it. -/
theorem at10_main_v6 : W10 m ρ c (Proc.devRef .tc main_v6) = W3 m ρ c (Proc.devRef .tc main_v6) :=
  (keep_main_v6_10 m ρ c).trans ((keep_main_v6_9 m ρ c).trans ((keep_main_v6_8 m ρ c).trans ((keep_main_v6_7 m ρ c).trans ((keep_main_v6_6 m ρ c).trans ((keep_main_v6_5 m ρ c).trans ((keep_main_v6_4 m ρ c).trans (rfl)))))))

/-! ### `main_v30` -/

theorem keep_main_v30_4 : W4 m ρ c (Proc.devRef .tc main_v30) = W3 m ρ c (Proc.devRef .tc main_v30) :=
  W4_of_ne m ρ c main_v30 (by decide)
theorem keep_main_v30_5 : W5 m ρ c (Proc.devRef .tc main_v30) = W4 m ρ c (Proc.devRef .tc main_v30) := by
  host_keeps hostOps1
theorem keep_main_v30_6 : W6 m ρ c (Proc.devRef .tc main_v30) = W5 m ρ c (Proc.devRef .tc main_v30) :=
  W6_of_ne m ρ c main_v30 (by decide)
theorem keep_main_v30_7 : W7 m ρ c (Proc.devRef .tc main_v30) = W6 m ρ c (Proc.devRef .tc main_v30) :=
  W7_of_ne m ρ c main_v30 (by decide)
theorem keep_main_v30_8 : W8 m ρ c (Proc.devRef .tc main_v30) = W7 m ρ c (Proc.devRef .tc main_v30) := by
  host_keeps hostOps3
theorem keep_main_v30_9 : W9 m ρ c (Proc.devRef .tc main_v30) = W8 m ρ c (Proc.devRef .tc main_v30) :=
  W9_of_ne m ρ c main_v30 (by decide)
theorem keep_main_v30_10 : W10 m ρ c (Proc.devRef .tc main_v30) = W9 m ρ c (Proc.devRef .tc main_v30) :=
  W10_of_ne m ρ c main_v30 (by decide)

/-- From boundary 3, where it is computed, to boundary 4, where the next stretch reads it. -/
theorem at4_main_v30 : W4 m ρ c (Proc.devRef .tc main_v30) = W3 m ρ c (Proc.devRef .tc main_v30) :=
  (keep_main_v30_4 m ρ c).trans (rfl)

/-- From boundary 3, where it is computed, to boundary 7, where the next stretch reads it. -/
theorem at7_main_v30 : W7 m ρ c (Proc.devRef .tc main_v30) = W3 m ρ c (Proc.devRef .tc main_v30) :=
  (keep_main_v30_7 m ρ c).trans ((keep_main_v30_6 m ρ c).trans ((keep_main_v30_5 m ρ c).trans ((keep_main_v30_4 m ρ c).trans (rfl))))

/-- From boundary 3, where it is computed, to boundary 10, where the next stretch reads it. -/
theorem at10_main_v30 : W10 m ρ c (Proc.devRef .tc main_v30) = W3 m ρ c (Proc.devRef .tc main_v30) :=
  (keep_main_v30_10 m ρ c).trans ((keep_main_v30_9 m ρ c).trans ((keep_main_v30_8 m ρ c).trans ((keep_main_v30_7 m ρ c).trans ((keep_main_v30_6 m ρ c).trans ((keep_main_v30_5 m ρ c).trans ((keep_main_v30_4 m ρ c).trans (rfl)))))))

end Cert.KernelIdeal.CarryEdges

end
-- ==== Proof.Edges3.lean ====
/-
  The graph structure in the idealized kernel's run: what the host operations before the first region leave in the three
  buffers the aggregation stretches read — the sources, the targets, the edge coefficients.

  The operations come in three stretches. The first builds the sources and the targets (a row of the edge list followed by
  the self loops), the degree of every node (a one summed at every edge's target) and the two operands of the selection;
  the second is the selection itself (the inverse square root of the degree where the degree is positive, zero elsewhere),
  read apart from its three operands;
  the third gathers that value at both ends of every edge and multiplies. Each stretch is read over an arbitrary entry
  valuation, so that every equation stays the size of one stretch; composing them from the launch memory gives the
  specification's `srcOf`, `dstOf` and `normOf` of the edge-list argument.
-/
import proofs.«105373_j14980845928717_1_alg».proof.Proof.Gen.KernelIdeal.Frame
import proofs.«105373_j14980845928717_1_alg».proof.Proof.Gen.ReferenceIdeal
import proofs.«105373_j14980845928717_1_alg».proof.Proof.Spec
import Idealize.ShloMosaic.Lib.StableHlo.Run
import Idealize.ShloMosaic.PureOps.Ideal

set_option maxRecDepth 16384

noncomputable section

namespace Cert.KernelIdeal.Edges3

open Idealize.ShloMosaic Idealize.ShloMosaic.TcCoe Idealize.SL.Sem Idealize.ShloMosaic.StableHlo
open Cert.KernelIdeal Cert.KernelIdeal.Gen Cert.Gcn

/-- An edge's coefficient from the per-node values: the product of the values at its two ends. -/
def coeff (dinv : NodeVec Ideal) (src dst : Ends Ideal) : EdgeCol Ideal :=
  broadcastInDim Cert.ReferenceIdeal.S850000x1 ![0] Cert.ReferenceIdeal.Gen.bcast_S850000_S850000x1_0
    (mulf (F := Ideal) (φ := .f32)
      (Host.gather Cert.ReferenceIdeal.gather_S50000_S850000x1_S850000_n_0_n_n_0_1_1 dinv
        (broadcastInDim Cert.ReferenceIdeal.S850000x1 ![0] Cert.ReferenceIdeal.Gen.bcast_S850000_S850000x1_0 (wrap src)))
      (Host.gather Cert.ReferenceIdeal.gather_S50000_S850000x1_S850000_n_0_n_n_0_1_1 dinv
        (broadcastInDim Cert.ReferenceIdeal.S850000x1 ![0] Cert.ReferenceIdeal.Gen.bcast_S850000_S850000x1_0 (wrap dst))))

/-- The specification's edge coefficients are those of the inverse square root of the degree. -/
theorem normOf_eq (src dst : Ends Ideal) : normOf src dst = coeff (dinvOf (degOf dst)) src dst := by
  unfold normOf coeff
  rfl

section operands

variable {F : FTy → Type} [FloatOps F]

/-- The selection's test: is the degree positive? -/
def positive (deg : NodeVec F) : (⟨Cert.ReferenceIdeal.S50000, .i1⟩ : BufTy).Contents (Elt F) :=
  cmpf .ogt deg (broadcastInDim Cert.ReferenceIdeal.S50000 ![] Cert.ReferenceIdeal.Gen.bcast_S_S50000 (constant Cert.ReferenceIdeal.S_ .f32 0x00000000#32))

/-- The inverse square root of the degree, node by node. -/
def rsqrtOf (deg : NodeVec F) : NodeVec F := Host.rsqrt deg

/-- The scalar zero. -/
def zeroScalar : (⟨Cert.ReferenceIdeal.S_, .f32⟩ : BufTy).Contents (Elt F) := constant Cert.ReferenceIdeal.S_ .f32 0x00000000#32

/-- The selection: `a` where `p` holds, the scalar `z` laid over the nodes elsewhere. -/
def selectOf (p : (⟨Cert.ReferenceIdeal.S50000, .i1⟩ : BufTy).Contents (Elt F)) (a : NodeVec F)
    (z : (⟨Cert.ReferenceIdeal.S_, .f32⟩ : BufTy).Contents (Elt F)) : NodeVec F :=
  select p a (broadcastInDim Cert.ReferenceIdeal.S50000 ![] Cert.ReferenceIdeal.Gen.bcast_S_S50000 (id z))

/-- The specification's `dinvOf` is that selection of those operands. -/
theorem dinvOf_eq (deg : NodeVec F) : dinvOf deg = selectOf (positive deg) (rsqrtOf deg) zeroScalar := by
  unfold dinvOf selectOf positive rsqrtOf zeroScalar
  rfl

end operands

section stretches

variable (V : Valuation τ sig (Elt Ideal))

set_option maxHeartbeats 4000000 in
/-- The first stretch leaves the sources: row 0 of the edge list, then the self loops. -/
theorem src_after : StableHlo.after hostOps0 V (Proc.devRef .tc main_v3) = srcOf (V (Proc.devRef .tc main_arg1)) := by
  after_results_simp
  rfl

set_option maxHeartbeats 4000000 in
/-- The first stretch leaves the targets: row 1 of the edge list, then the self loops. -/
theorem dst_after : StableHlo.after hostOps0 V (Proc.devRef .tc main_v6) = dstOf (V (Proc.devRef .tc main_arg1)) := by
  after_results_simp
  rfl

set_option maxHeartbeats 8000000 in
/-- The first stretch leaves the degree's positivity test … -/
theorem positive_after : StableHlo.after hostOps0 V (Proc.devRef .tc main_v12)
    = positive (degOf (dstOf (V (Proc.devRef .tc main_arg1)))) := by
  after_results_simp
  unfold positive degOf dstOf
  rfl

set_option maxHeartbeats 8000000 in
/-- … the degree's inverse square root … -/
theorem rsqrt_after : StableHlo.after hostOps0 V (Proc.devRef .tc main_v13)
    = rsqrtOf (degOf (dstOf (V (Proc.devRef .tc main_arg1)))) := by
  after_results_simp
  unfold rsqrtOf degOf dstOf
  rfl

set_option maxHeartbeats 4000000 in
/-- … and the zero the selection falls back to. -/
theorem zero_after : StableHlo.after hostOps0 V (Proc.devRef .tc main_cst_2) = zeroScalar := by
  after_results_simp <;> rfl

set_option maxHeartbeats 4000000 in
/-- The second stretch is the selection: the second operand where the test holds, the third (laid over the nodes) elsewhere. -/
theorem select_after : StableHlo.after hostOps0_1 V (Proc.devRef .tc main_v14)
    = selectOf (V (Proc.devRef .tc main_v12)) (V (Proc.devRef .tc main_v13)) (V (Proc.devRef .tc main_cst_2)) := by
  after_results_simp
  unfold selectOf
  rfl

/-- The first two stretches leave the inverse square root of the degree (zero where the degree is not positive). -/
theorem dinv_after : StableHlo.after hostOps0_1 (StableHlo.after hostOps0 V) (Proc.devRef .tc main_v14)
    = dinvOf (degOf (dstOf (V (Proc.devRef .tc main_arg1)))) := by
  rw [select_after (StableHlo.after hostOps0 V), positive_after V, rsqrt_after V, zero_after V]
  exact (dinvOf_eq _).symm

set_option maxHeartbeats 4000000 in
/-- The second stretch writes neither the sources nor the targets. -/
theorem src_kept : StableHlo.after hostOps0_1 V (Proc.devRef .tc main_v3) = V (Proc.devRef .tc main_v3) := by
  after_results_simp <;> rfl

set_option maxHeartbeats 4000000 in
theorem dst_kept : StableHlo.after hostOps0_1 V (Proc.devRef .tc main_v6) = V (Proc.devRef .tc main_v6) := by
  after_results_simp <;> rfl

set_option maxHeartbeats 8000000 in
/-- The third stretch leaves the edge coefficients of the per-node values, sources and targets it finds. -/
theorem coeff_after : StableHlo.after hostOps0_2 V (Proc.devRef .tc main_v30)
    = coeff (V (Proc.devRef .tc main_v14)) (V (Proc.devRef .tc main_v3)) (V (Proc.devRef .tc main_v6)) := by
  after_results_simp
  unfold coeff wrap
  rfl

set_option maxHeartbeats 4000000 in
/-- The third stretch writes neither the sources nor the targets. -/
theorem src_kept2 : StableHlo.after hostOps0_2 V (Proc.devRef .tc main_v3) = V (Proc.devRef .tc main_v3) := by
  after_results_simp <;> rfl

set_option maxHeartbeats 4000000 in
theorem dst_kept2 : StableHlo.after hostOps0_2 V (Proc.devRef .tc main_v6) = V (Proc.devRef .tc main_v6) := by
  after_results_simp <;> rfl

end stretches

variable (m : (ℓ : Loc nD τ sig) → Buf (Elt Ideal) ℓ) (ρ : Dev nD → PrngReg) (c : Dev nD)

/-- The sources at boundary 3. -/
theorem src3 : W3 m ρ c (Proc.devRef .tc main_v3) = srcOf (m ((c : Thread nD τ).loc main_arg1)) :=
  (src_kept2 (W2 m ρ c)).trans ((src_kept (W1 m ρ c)).trans (src_after (W0 m ρ c)))

/-- The targets at boundary 3. -/
theorem dst3 : W3 m ρ c (Proc.devRef .tc main_v6) = dstOf (m ((c : Thread nD τ).loc main_arg1)) :=
  (dst_kept2 (W2 m ρ c)).trans ((dst_kept (W1 m ρ c)).trans (dst_after (W0 m ρ c)))

/-- The edge coefficients at boundary 3. -/
theorem nrm3 : W3 m ρ c (Proc.devRef .tc main_v30) = normOf (srcOf (m ((c : Thread nD τ).loc main_arg1))) (dstOf (m ((c : Thread nD τ).loc main_arg1))) := by
  have h14 : W2 m ρ c (Proc.devRef .tc main_v14) = dinvOf (degOf (dstOf (m ((c : Thread nD τ).loc main_arg1)))) := dinv_after (W0 m ρ c)
  have h3 : W2 m ρ c (Proc.devRef .tc main_v3) = srcOf (m ((c : Thread nD τ).loc main_arg1)) := (src_kept (W1 m ρ c)).trans (src_after (W0 m ρ c))
  have h6 : W2 m ρ c (Proc.devRef .tc main_v6) = dstOf (m ((c : Thread nD τ).loc main_arg1)) := (dst_kept (W1 m ρ c)).trans (dst_after (W0 m ρ c))
  refine (coeff_after (W2 m ρ c)).trans ?_
  rw [h14, h3, h6, normOf_eq]

end Cert.KernelIdeal.Edges3

end
-- ==== Proof.Fold.lean ====
/-
  The idealized kernel's two results as functions of its argument arrays: the fold of its run, boundary by boundary.

  Between the launch and the return the run crosses fourteen boundaries. The host operations before the first region
  build the graph structure (sources, targets, edge coefficients: the module on the first three stretches); then, three times, a region projects the node rows
  onto a weight matrix, a stretch of host operations aggregates the projected rows over the edges, and a region adds the
  bias and rectifies; a last stretch pools the node rows per graph and the last region applies the dense head. Each region
  leaves in its output array the matrix product, respectively the biased and rectified rows, of the arrays it finds
  (the region modules); each stretch's result is its operations' term of the buffers it finds; and every buffer read at
  a boundary still holds what the earlier boundary left there (the two bookkeeping modules). Chaining these gives, at the
  last boundary, the specification's `embedding` and `logits` of the launch contents of the arguments.

  The host's `dot_general`, its row broadcast of the bias and its `maximum` with zero are, entry by entry, the matrix
  product, the added row and the rectifier the regions compute (no law of arithmetic joins the two sides, only the
  order in which whole arrays are cut into blocks), and the change of float format around the projected rows is the
  identity on the extended reals.
-/
import proofs.«105373_j14980845928717_1_alg».proof.Proof.Gen.KernelIdeal.Frame
import proofs.«105373_j14980845928717_1_alg».proof.Proof.Gen.ReferenceIdeal
import proofs.«105373_j14980845928717_1_alg».proof.Proof.Spec
import proofs.«105373_j14980845928717_1_alg».proof.Proof.Project0
import proofs.«105373_j14980845928717_1_alg».proof.Proof.Project2
import proofs.«105373_j14980845928717_1_alg».proof.Proof.Project4
import proofs.«105373_j14980845928717_1_alg».proof.Proof.BiasRelu1
import proofs.«105373_j14980845928717_1_alg».proof.Proof.BiasRelu3
import proofs.«105373_j14980845928717_1_alg».proof.Proof.BiasRelu5
import proofs.«105373_j14980845928717_1_alg».proof.Proof.Head6
import proofs.«105373_j14980845928717_1_alg».proof.Proof.CarryArgs
import proofs.«105373_j14980845928717_1_alg».proof.Proof.CarryEdges
import proofs.«105373_j14980845928717_1_alg».proof.Proof.Edges3
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.Gcn Cert.Dense

variable (m : (ℓ : Loc nD τ sig) → Buf (Elt Ideal) ℓ) (ρ : Dev nD → PrngReg) (c : Dev nD)

/-! ## Layer 1 -/

/-- Region 0 leaves the node features times the first weight matrix. -/
theorem proj1 : W4 m ρ c (Proc.devRef .tc main_v31) = project (m ((c : Thread nD τ).loc main_arg0)) (m ((c : Thread nD τ).loc main_arg3)) := by
  refine (W4_arr m ρ c 2).trans ((Project0.product (V3 m ρ) c).trans ?_)
  show matProd (W3 m ρ c (Proc.devRef .tc main_arg0)) (W3 m ρ c (Proc.devRef .tc main_arg3)) = _
  rw [CarryArgs.at3_main_arg0 m ρ c, CarryArgs.at3_main_arg3 m ρ c]
  unfold project
  exact (dotGeneral_eq _ none _ _).symm

set_option maxHeartbeats 4000000 in
/-- The first aggregation stretch: the projected rows gathered at the sources, scaled, summed at the targets. -/
theorem agg1 : W5 m ρ c (Proc.devRef .tc main_v44) = aggregate (srcOf (m ((c : Thread nD τ).loc main_arg1))) (dstOf (m ((c : Thread nD τ).loc main_arg1))) (normOf (srcOf (m ((c : Thread nD τ).loc main_arg1))) (dstOf (m ((c : Thread nD τ).loc main_arg1)))) (project (m ((c : Thread nD τ).loc main_arg0)) (m ((c : Thread nD τ).loc main_arg3))) := by
  show StableHlo.after hostOps1 (W4 m ρ c) (Proc.devRef .tc main_v44) = _
  after_results_simp
  rw [(CarryEdges.at4_main_v3 m ρ c).trans (Edges3.src3 m ρ c), (CarryEdges.at4_main_v6 m ρ c).trans (Edges3.dst3 m ρ c),
    (CarryEdges.at4_main_v30 m ρ c).trans (Edges3.nrm3 m ρ c), proj1 m ρ c]
  rfl

/-- Region 1 adds the first bias and rectifies: the node rows after layer 1. -/
theorem rows1 : W6 m ρ c (Proc.devRef .tc main_v45) = layer (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg0)) (m ((c : Thread nD τ).loc main_arg3)) (m ((c : Thread nD τ).loc main_arg4)) := by
  refine (W6_arr m ρ c 2).trans ((BiasRelu1.biased (V5 m ρ) c).trans ?_)
  show addRowRelu (W5 m ρ c (Proc.devRef .tc main_v44)) (shapeCast ⟨2, ![1, 128]⟩ (W5 m ρ c (Proc.devRef .tc main_arg4)) _) = _
  rw [agg1 m ρ c, CarryArgs.at5_main_arg4 m ρ c]
  unfold layer addBiasRelu
  exact (relu_add_rows_eq _ _ _ _ _ _).symm

/-! ## Layer 2 -/

/-- Region 2 leaves the rows of layer 1 times the second weight matrix. -/
theorem proj2 : W7 m ρ c (Proc.devRef .tc main_v46) = project (layer (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg0)) (m ((c : Thread nD τ).loc main_arg3)) (m ((c : Thread nD τ).loc main_arg4))) (m ((c : Thread nD τ).loc main_arg5)) := by
  refine (W7_arr m ρ c 2).trans ((Project2.product (V6 m ρ) c).trans ?_)
  show matProd (W6 m ρ c (Proc.devRef .tc main_v45)) (W6 m ρ c (Proc.devRef .tc main_arg5)) = _
  rw [rows1 m ρ c, CarryArgs.at6_main_arg5 m ρ c]
  unfold project
  exact (dotGeneral_eq _ none _ _).symm

set_option maxHeartbeats 4000000 in
/-- The second aggregation stretch. -/
theorem agg2 : W8 m ρ c (Proc.devRef .tc main_v59) = aggregate (srcOf (m ((c : Thread nD τ).loc main_arg1))) (dstOf (m ((c : Thread nD τ).loc main_arg1))) (normOf (srcOf (m ((c : Thread nD τ).loc main_arg1))) (dstOf (m ((c : Thread nD τ).loc main_arg1)))) (project (layer (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg0)) (m ((c : Thread nD τ).loc main_arg3)) (m ((c : Thread nD τ).loc main_arg4))) (m ((c : Thread nD τ).loc main_arg5))) := by
  show StableHlo.after hostOps3 (W7 m ρ c) (Proc.devRef .tc main_v59) = _
  after_results_simp
  rw [(CarryEdges.at7_main_v3 m ρ c).trans (Edges3.src3 m ρ c), (CarryEdges.at7_main_v6 m ρ c).trans (Edges3.dst3 m ρ c),
    (CarryEdges.at7_main_v30 m ρ c).trans (Edges3.nrm3 m ρ c), proj2 m ρ c]
  rfl

/-- Region 3: the node rows after layer 2. -/
theorem rows2 : W9 m ρ c (Proc.devRef .tc main_v60) = layer (srcOf (m ((c : Thread nD τ).loc main_arg1))) (dstOf (m ((c : Thread nD τ).loc main_arg1))) (normOf (srcOf (m ((c : Thread nD τ).loc main_arg1))) (dstOf (m ((c : Thread nD τ).loc main_arg1)))) (layer (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg0)) (m ((c : Thread nD τ).loc main_arg3)) (m ((c : Thread nD τ).loc main_arg4))) (m ((c : Thread nD τ).loc main_arg5)) (m ((c : Thread nD τ).loc main_arg6)) := by
  refine (W9_arr m ρ c 2).trans ((BiasRelu3.biased (V8 m ρ) c).trans ?_)
  show addRowRelu (W8 m ρ c (Proc.devRef .tc main_v59)) (shapeCast ⟨2, ![1, 128]⟩ (W8 m ρ c (Proc.devRef .tc main_arg6)) _) = _
  rw [agg2 m ρ c, CarryArgs.at8_main_arg6 m ρ c]
  unfold layer addBiasRelu
  exact (relu_add_rows_eq _ _ _ _ _ _).symm

/-! ## Layer 3 -/

/-- Region 4 leaves the rows of layer 2 times the third weight matrix. -/
theorem proj3 : W10 m ρ c (Proc.devRef .tc main_v61) = project (layer (srcOf (m ((c : Thread nD τ).loc main_arg1))) (dstOf (m ((c : Thread nD τ).loc main_arg1))) (normOf (srcOf (m ((c : Thread nD τ).loc main_arg1))) (dstOf (m ((c : Thread nD τ).loc main_arg1)))) (layer (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) := by
  refine (W10_arr m ρ c 2).trans ((Project4.product (V9 m ρ) c).trans ?_)
  show matProd (W9 m ρ c (Proc.devRef .tc main_v60)) (W9 m ρ c (Proc.devRef .tc main_arg7)) = _
  rw [rows2 m ρ c, CarryArgs.at9_main_arg7 m ρ c]
  unfold project
  exact (dotGeneral_eq _ none _ _).symm

set_option maxHeartbeats 4000000 in
/-- The third aggregation stretch. -/
theorem agg3 : W11 m ρ c (Proc.devRef .tc main_v74) = aggregate (srcOf (m ((c : Thread nD τ).loc main_arg1))) (dstOf (m ((c : Thread nD τ).loc main_arg1))) (normOf (srcOf (m ((c : Thread nD τ).loc main_arg1))) (dstOf (m ((c : Thread nD τ).loc main_arg1)))) (project (layer (srcOf (m ((c : Thread nD τ).loc main_arg1))) (dstOf (m ((c : Thread nD τ).loc main_arg1))) (normOf (srcOf (m ((c : Thread nD τ).loc main_arg1))) (dstOf (m ((c : Thread nD τ).loc main_arg1)))) (layer (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7))) := by
  show StableHlo.after hostOps5 (W10 m ρ c) (Proc.devRef .tc main_v74) = _
  after_results_simp
  rw [(CarryEdges.at10_main_v3 m ρ c).trans (Edges3.src3 m ρ c), (CarryEdges.at10_main_v6 m ρ c).trans (Edges3.dst3 m ρ c),
    (CarryEdges.at10_main_v30 m ρ c).trans (Edges3.nrm3 m ρ c), proj3 m ρ c]
  rfl

/-- Region 5: the node rows after layer 3. -/
theorem rows3 : W12 m ρ c (Proc.devRef .tc main_v75) = layer (srcOf (m ((c : Thread nD τ).loc main_arg1))) (dstOf (m ((c : Thread nD τ).loc main_arg1))) (normOf (srcOf (m ((c : Thread nD τ).loc main_arg1))) (dstOf (m ((c : Thread nD τ).loc main_arg1)))) (layer (srcOf (m ((c : Thread nD τ).loc main_arg1))) (dstOf (m ((c : Thread nD τ).loc main_arg1))) (normOf (srcOf (m ((c : Thread nD τ).loc main_arg1))) (dstOf (m ((c : Thread nD τ).loc main_arg1)))) (layer (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) (m ((c : Thread nD τ).loc main_arg8)) := by
  refine (W12_arr m ρ c 2).trans ((BiasRelu5.biased (V11 m ρ) c).trans ?_)
  show addRowRelu (W11 m ρ c (Proc.devRef .tc main_v74)) (shapeCast ⟨2, ![1, 128]⟩ (W11 m ρ c (Proc.devRef .tc main_arg8)) _) = _
  rw [agg3 m ρ c, CarryArgs.at11_main_arg8 m ρ c]
  unfold layer addBiasRelu
  exact (relu_add_rows_eq _ _ _ _ _ _).symm

/-! ## The pooling and the head -/

set_option maxHeartbeats 4000000 in
/-- The last stretch of host operations: the mean of every graph's node rows. -/
theorem pooled13 : W13 m ρ c (Proc.devRef .tc main_v87) = pool (m ((c : Thread nD τ).loc main_arg2)) (layer (srcOf (m ((c : Thread nD τ).loc main_arg1))) (dstOf (m ((c : Thread nD τ).loc main_arg1))) (normOf (srcOf (m ((c : Thread nD τ).loc main_arg1))) (dstOf (m ((c : Thread nD τ).loc main_arg1)))) (layer (srcOf (m ((c : Thread nD τ).loc main_arg1))) (dstOf (m ((c : Thread nD τ).loc main_arg1))) (normOf (srcOf (m ((c : Thread nD τ).loc main_arg1))) (dstOf (m ((c : Thread nD τ).loc main_arg1)))) (layer (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) (m ((c : Thread nD τ).loc main_arg8))) := by
  show StableHlo.after hostOps6 (W12 m ρ c) (Proc.devRef .tc main_v87) = _
  after_results_simp
  rw [CarryArgs.at12_main_arg2 m ρ c, rows3 m ρ c]
  rfl

/-- Region 6 reads the pooled rows through an input window and leaves them as they were: THE SECOND RESULT. -/
theorem kernel_embedding : W14 m ρ c (Proc.devRef .tc main_v87)
    = embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W14_arr m ρ c 0).trans ((((dat6 (V13 m ρ) c).arrAt_in 0 rfl _).trans (A_eq6 (V13 m ρ) c 0)).trans (pooled13 m ρ c))

/-- Region 6 leaves the pooled rows times the head's weights plus its bias: THE FIRST RESULT. -/
theorem kernel_logits : W14 m ρ c (Proc.devRef .tc main_v88)
    = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W14_arr m ρ c 3).trans ((Head6.scores (V13 m ρ) c).trans ?_)
  show addRow (matProd (W13 m ρ c (Proc.devRef .tc main_v87)) (W13 m ρ c (Proc.devRef .tc main_arg9)))
      (shapeCast ⟨2, ![1, 6]⟩ (W13 m ρ c (Proc.devRef .tc main_arg10)) _) = _
  rw [pooled13 m ρ c, CarryArgs.at13_main_arg9 m ρ c, CarryArgs.at13_main_arg10 m ρ c]
  unfold logits head embedding
  refine ((add_rows_eq _ _ shapeCasts_S6_S1x6 _ _).trans ?_).symm
  exact congrArg (fun P => addRow P (shapeCast ⟨2, ![1, 6]⟩ (m ((c : Thread nD τ).loc main_arg10)) shapeCasts_S6_S1x6)) (dotGeneral_eq _ none _ _)

end Cert.KernelIdeal.Fold

end
-- ==== Proof.lean ====
/-
  The certificate of a three-layer graph convolution network with mean pooling and a dense head: the kernel program runs
  its dense steps — the projection of the node rows onto a weight matrix, the bias and rectifier after the aggregation,
  the head — as seven kernel regions tiled over the 50000 nodes, with matrix operands in a narrower float format, and
  keeps the gather / scale / scatter-add over the 850000 edges and the pooling as host operations; the reference program
  is the same network in host operations only.

  On the extended reals the change of float format is the identity, the vector unit's product into a zero accumulator and
  the host's `dot_general` are the same sums, and a step computed a block of rows at a time is the step on the whole
  array, so both programs end with the same composition of stages (Proof/Spec.lean) of their arguments: no law of
  arithmetic is used and the precondition (finite inputs) is never opened. The three frames are the generated frame
  certificates of the two kernel programs and the reference's run with its results dropped; the idealization rewrote no
  operation, so there is nothing to preserve.
-/
import proofs.«105373_j14980845928717_1_alg».proof.Defs
import proofs.«105373_j14980845928717_1_alg».proof.Proof.Gen.Kernel
import proofs.«105373_j14980845928717_1_alg».proof.Proof.Gen.Kernel.Skeleton
import proofs.«105373_j14980845928717_1_alg».proof.Proof.Gen.Kernel.Launch
import proofs.«105373_j14980845928717_1_alg».proof.Proof.Gen.Kernel.Points
import proofs.«105373_j14980845928717_1_alg».proof.Proof.Gen.Kernel.Frame
import proofs.«105373_j14980845928717_1_alg».proof.Proof.Gen.KernelIdeal
import proofs.«105373_j14980845928717_1_alg».proof.Proof.Gen.KernelIdeal.Skeleton
import proofs.«105373_j14980845928717_1_alg».proof.Proof.Gen.KernelIdeal.Launch
import proofs.«105373_j14980845928717_1_alg».proof.Proof.Gen.KernelIdeal.Points
import proofs.«105373_j14980845928717_1_alg».proof.Proof.Gen.KernelIdeal.Frame
import proofs.«105373_j14980845928717_1_alg».proof.Proof.Gen.ReferenceIdeal
import proofs.«105373_j14980845928717_1_alg».proof.Proof.Gen.Pre_finite_inputs
import proofs.«105373_j14980845928717_1_alg».proof.Proof.KernelRun
import proofs.«105373_j14980845928717_1_alg».proof.Proof.RefRun
import proofs.«105373_j14980845928717_1_alg».proof.Proof.Fold
import Idealize.ShloMosaic.Adequacy
import Idealize.ShloMosaic.Init

noncomputable section

namespace Cert.Proof

open Idealize.ShloMosaic Idealize.SL.Sem

/-- The kernel program as printed runs and leaves its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments: its run with the two results dropped. -/
theorem frame_reference : Cert.frame_ReferenceIdeal := fun m ρ _ =>
  (θ_run Cert.ReferenceIdeal.defs _ _).mono (fun _ h c => (h c).2.2) (Cert.ReferenceIdeal.HandRun.run (F := Ideal) m ρ)

/-- The idealization rewrote no operation. -/
theorem preserves : Cert.preserves_Kernel_KernelIdeal := trivial

/-- From memories agreeing on the arguments both idealized programs end with the class scores and the pooled embedding
    of those arguments: the kernel's run folded boundary by boundary, the reference's run read stage by stage. -/
theorem algebraic : Cert.algebraic_KernelIdeal_ReferenceIdeal := by
  intro m ρ m' ρ' _ hagree
  refine ⟨fun c => Cert.Gcn.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Gcn.embedding (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.WholeRun.run_results (F := Ideal) m ρ)
    obtain ⟨h88, h87, hargs⟩ := h c
    exact ⟨h88.trans (Cert.KernelIdeal.Fold.kernel_logits m ρ c), h87.trans (Cert.KernelIdeal.Fold.kernel_embedding m ρ c), hargs⟩
  · refine (θ_run Cert.ReferenceIdeal.defs _ _).mono (fun r h c => ?_) (Cert.ReferenceIdeal.HandRun.run (F := Ideal) m' ρ')
    obtain ⟨h97, h93, hargs⟩ := h c
    obtain ⟨a0, a1, a2, a3, a4, a5, a6, a7, a8, a9, a10⟩ := hagree c
    refine ⟨h97.trans ?_, h93.trans ?_, hargs⟩
    · rw [a0, a1, a2, a3, a4, a5, a6, a7, a8, a9, a10]
    · rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
